-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S16x1 .f32) (main_arg9 : FVec F S16x1 .f32) (main_arg10 : FVec F S1 .f32) (main_v33 : IVec S_ 1) : IVec S_ 1 :=
  let main_v34 : FVec F S16x1 .f32 := Host.absf main_arg8
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S16x1 .f32 := Host.absf main_arg9
  let main_cst_14 : FVec F S_ .f32 := constant S_ .f32 0x7F800000#32
  let main_v40 : FVec F S16x1 .f32 := broadcastInDim S16x1 ![] bcast_S_S16x1 main_cst_14
  let main_v41 : IVec S16x1 1 := cmpf .olt main_v39 main_v40
  let main_c_15 : IVec S_ 1 := constantI S_ 1 1#1
  let main_v42 : IVec S_ 1 := (fun x v => Host.reduce IntOp.andi x v reducesTo_S16x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S16x16 .f32) (main_arg6 : FVec F S16x16 .f32) (main_arg7 : FVec F S16 .f32) (main_arg8 : FVec F S16x1 .f32) (main_arg9 : FVec F S16x1 .f32) (main_arg10 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_v33

def fn {F : FTy → Type} [FloatOps F] (main_arg0 : FVec F S100000x1 .f32) (main_arg1 : IVec S2x3200000 32) (main_arg2 : FVec F S1x16 .f32) (main_arg3 : FVec F S1x16 .f32) (main_arg4 : FVec F S16 .f32) (main_arg5 : FVec F S16x16 .f32) (main_arg6 : FVec F S16x16 .f32) (main_arg7 : FVec F S16 .f32) (main_arg8 : FVec F S16x1 .f32) (main_arg9 : FVec F S16x1 .f32) (main_arg10 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x16 .f32 := Host.absf main_arg2
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_v13 main_v16
-- ==== Kernel.lean ====
abbrev S100000x1 : Shape := ⟨2, ![100000, 1]⟩
abbrev S2x3200000 : Shape := ⟨2, ![2, 3200000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x16 : Shape := ⟨2, ![100000, 16]⟩
abbrev S10000x1 : Shape := ⟨2, ![10000, 1]⟩
abbrev S10000x16 : Shape := ⟨2, ![10000, 16]⟩
abbrev S3200000x16 : Shape := ⟨2, ![3200000, 16]⟩
abbrev S1x1 : Shape := ⟨2, ![1, 1]⟩

abbrev nBuf : Space → Nat
  | .hbm => 61
  | .vmem => 31
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S1x16, .f32⟩
  | .hbm, ⟨3, _⟩ => ⟨S1x16, .f32⟩
  | .hbm, ⟨4, _⟩ => ⟨S16, .f32⟩
  | .hbm, ⟨5, _⟩ => ⟨S16x16, .f32⟩
  | .hbm, ⟨6, _⟩ => ⟨S16x16, .f32⟩
  | .hbm, ⟨7, _⟩ => ⟨S16, .f32⟩
  | .hbm, ⟨8, _⟩ => ⟨S16x1, .f32⟩
  | .hbm, ⟨9, _⟩ => ⟨S16x1, .f32⟩
  | .hbm, ⟨10, _⟩ => ⟨S1, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x1, .f32⟩
  | .hbm, ⟨24, _⟩ => ⟨S_, .f32⟩
  | .hbm, ⟨25, _⟩ => ⟨S100000x1, .f32⟩
  | .hbm, ⟨26, _⟩ => ⟨S3200000x1, .i32⟩
  | .hbm, ⟨27, _⟩ => ⟨S100000x1, .f32⟩
  | .hbm, ⟨28, _⟩ => ⟨S1x16, .f32⟩
  | .hbm, ⟨29, _⟩ => ⟨S100000x16, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x16, .f32⟩
  | .hbm, ⟨39, _⟩ => ⟨S_, .f32⟩
  | .hbm, ⟨40, _⟩ => ⟨S100000x16, .f32⟩
  | .hbm, ⟨41, _⟩ => ⟨S3200000x1, .i32⟩
  | .hbm, ⟨42, _⟩ => ⟨S100000x16, .f32⟩
  | .hbm, ⟨43, _⟩ => ⟨S1x16, .f32⟩
  | .hbm, ⟨44, _⟩ => ⟨S100000x16, .f32⟩
  | .hbm, ⟨45, _⟩ => ⟨S100000x1, .f32⟩
  | .hbm, ⟨46, _⟩ => ⟨S_, .i32⟩
  | .hbm, ⟨47, _⟩ => ⟨S3200000, .i32⟩
  | .hbm, ⟨48, _⟩ => ⟨S3200000, .i1⟩
  | .hbm, ⟨49, _⟩ => ⟨S_, .i32⟩
  | .hbm, ⟨50, _⟩ => ⟨S3200000, .i32⟩
  | .hbm, ⟨51, _⟩ => ⟨S3200000, .i32⟩
  | .hbm, ⟨52, _⟩ => ⟨S3200000, .i32⟩
  | .hbm, ⟨53, _⟩ => ⟨S3200000x1, .i32⟩
  | .hbm, ⟨54, _⟩ => ⟨S3200000x1, .f32⟩
  | .hbm, ⟨55, _⟩ => ⟨S_, .f32⟩
  | .hbm, ⟨56, _⟩ => ⟨S100000x1, .f32⟩
  | .hbm, ⟨57, _⟩ => ⟨S3200000x1, .i32⟩
  | .hbm, ⟨58, _⟩ => ⟨S100000x1, .f32⟩
  | .hbm, ⟨59, _⟩ => ⟨S1x1, .f32⟩
  | .hbm, ⟨60, _⟩ => ⟨S100000x1, .f32⟩
  | .local _ .vmem, ⟨0, _⟩ => ⟨S10000x1, .f32⟩
  | .local _ .vmem, ⟨1, _⟩ => ⟨S10000x1, .f32⟩
  | .local _ .vmem, ⟨2, _⟩ => ⟨S10000x1, .f32⟩
  | .local _ .vmem, ⟨3, _⟩ => ⟨S10000x1, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | .local _ .vmem, ⟨7, _⟩ => ⟨S10000x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S16x16, .f32⟩
  | .local _ .vmem, ⟨14, _⟩ => ⟨S16x16, .f32⟩
  | .local _ .vmem, ⟨15, _⟩ => ⟨S1x16, .f32⟩
  | .local _ .vmem, ⟨16, _⟩ => ⟨S10000x16, .f32⟩
  | .local _ .vmem, ⟨17, _⟩ => ⟨S10000x16, .f32⟩
  | .local _ .vmem, ⟨18, _⟩ => ⟨S10000x16, .f32⟩
  | .local _ .vmem, ⟨19, _⟩ => ⟨S10000x16, .f32⟩
  | .local _ .vmem, ⟨20, _⟩ => ⟨S16x1, .f32⟩
  | .local _ .vmem, ⟨21, _⟩ => ⟨S10000x1, .f32⟩
  | .local _ .vmem, ⟨22, _⟩ => ⟨S10000x1, .f32⟩
  | .local _ .vmem, ⟨23, _⟩ => ⟨S10000x1, .f32⟩
  | .local _ .vmem, ⟨24, _⟩ => ⟨S10000x1, .f32⟩
  | .local _ .vmem, ⟨25, _⟩ => ⟨S10000x16, .f32⟩
  | .local _ .vmem, ⟨26, _⟩ => ⟨S10000x16, .f32⟩
  | .local _ .vmem, ⟨27, _⟩ => ⟨S16x1, .f32⟩
  | .local _ .vmem, ⟨28, _⟩ => ⟨S1x1, .f32⟩
  | .local _ .vmem, ⟨29, _⟩ => ⟨S10000x1, .f32⟩
  | .local _ .vmem, ⟨30, _⟩ => ⟨S10000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x1 : S_.BroadcastsInDim S100000x1 (![] : Fin 0 → Fin S100000x1.rank)
  shapeCasts_S16_S1x16 : S16.ShapeCasts S1x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  shapeCasts_S10000x16_S10000x16 : S10000x16.ShapeCasts S10000x16
  inb_S16x16_S16x16_0_0 : ∀ a, (![0, 0] : Fin 2 → Nat) a + S16x16.size a ≤ S16x16.size a
  h_S16x16 : 0 < S16x16.numel
  inb_S16x1_S16x1_0_0 : ∀ a, (![0, 0] : Fin 2 → Nat) a + S16x1.size a ≤ S16x1.size a
  h_S16x1 : 0 < S16x1.numel
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  dot_S10000x1_S1x16_S10000x16_1_0_0_1_n_n_wf : DotDims.WF S10000x1 S1x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x16_S10000x16_1_0_0_1_n_n_wf : DotDims.WF S10000x16 S16x16 S10000x16 [1] [0] [0] [1] [] []
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x16.size a ≤ S100000x16.size a
  hwx0_5 : ∀ i : grid0.Coords, EltTy.bits .f32 = 32 ∨ (Rect.block (s := S100000x16) S10000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x16.size a ≤ S100000x16.size a
  hwx1_5 : ∀ i : grid1.Coords, EltTy.bits .f32 = 32 ∨ (Rect.block (s := S100000x16) S10000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x1.size a ≤ S16x1.size a
  hwx2_1 : ∀ i : grid2.Coords, EltTy.bits .f32 = 32 ∨ (Rect.block (s := S16x1) S16x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x1.size a ≤ S100000x1.size a
  hwx3_0 : ∀ i : grid3.Coords, EltTy.bits .f32 = 32 ∨ (Rect.block (s := S100000x1) S10000x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S100000x16.size a
  hwx3_1 : ∀ i : grid3.Coords, EltTy.bits .f32 = 32 ∨ (Rect.block (s := S100000x16) S10000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x1.size a ≤ S16x1.size a
  hwx3_2 : ∀ i : grid3.Coords, EltTy.bits .f32 = 32 ∨ (Rect.block (s := S16x1) S16x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x1.size a ≤ S100000x1.size a
  hwx3_4 : ∀ i : grid3.Coords, EltTy.bits .f32 = 32 ∨ (Rect.block (s := S100000x1) S10000x1.size (cc3_transform_4 i) (hinb3_4 i)).WholeWords (EltTy.packing .f32)

variable [Facts₀]

def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S10000x1_S1x16_S10000x16_1_0_0_1_n_n : DotDims S10000x1 S1x16 S10000x16 where
  lhsContracting := [1]
  rhsContracting := [0]
  lhsNonContracting := [0]
  rhsNonContracting := [1]
  lhsBatch := []
  rhsBatch := []
  wf := dot_S10000x1_S1x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_v13) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S10000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S10000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S16x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S10000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S10000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S16x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S10000x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x1 : Shape := ⟨2, ![100000, 1]⟩
abbrev S2x3200000 : Shape := ⟨2, ![2, 3200000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x16 : Shape := ⟨2, ![100000, 16]⟩
abbrev S3200000x16 : Shape := ⟨2, ![3200000, 16]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S1x16, .f32⟩
  | .hbm, ⟨3, _⟩ => ⟨S1x16, .f32⟩
  | .hbm, ⟨4, _⟩ => ⟨S16, .f32⟩
  | .hbm, ⟨5, _⟩ => ⟨S16x16, .f32⟩
  | .hbm, ⟨6, _⟩ => ⟨S16x16, .f32⟩
  | .hbm, ⟨7, _⟩ => ⟨S16, .f32⟩
  | .hbm, ⟨8, _⟩ => ⟨S16x1, .f32⟩
  | .hbm, ⟨9, _⟩ => ⟨S16x1, .f32⟩
  | .hbm, ⟨10, _⟩ => ⟨S1, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x1, .f32⟩
  | .hbm, ⟨24, _⟩ => ⟨S_, .f32⟩
  | .hbm, ⟨25, _⟩ => ⟨S100000x1, .f32⟩
  | .hbm, ⟨26, _⟩ => ⟨S3200000x1, .i32⟩
  | .hbm, ⟨27, _⟩ => ⟨S100000x1, .f32⟩
  | .hbm, ⟨28, _⟩ => ⟨S100000x16, .f32⟩
  | .hbm, ⟨29, _⟩ => ⟨S1x16, .f32⟩
  | .hbm, ⟨30, _⟩ => ⟨S100000x16, .f32⟩
  | .hbm, ⟨31, _⟩ => ⟨S100000x16, .f32⟩
  | .hbm, ⟨32, _⟩ => ⟨S100000x16, .f32⟩
  | .hbm, ⟨33, _⟩ => ⟨S100000x16, .f32⟩
  | .hbm, ⟨34, _⟩ => ⟨S_, .f32⟩
  | .hbm, ⟨35, _⟩ => ⟨S100000x16, .f32⟩
  | .hbm, ⟨36, _⟩ => ⟨S100000x16, .f32⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S_, .i32⟩
  | .hbm, ⟨41, _⟩ => ⟨S3200000, .i32⟩
  | .hbm, ⟨42, _⟩ => ⟨S3200000, .i32⟩
  | .hbm, ⟨43, _⟩ => ⟨S3200000, .i32⟩
  | .hbm, ⟨44, _⟩ => ⟨S3200000x1, .i32⟩
  | .hbm, ⟨45, _⟩ => ⟨S3200000x16, .f32⟩
  | .hbm, ⟨46, _⟩ => ⟨S_, .f32⟩
  | .hbm, ⟨47, _⟩ => ⟨S100000x16, .f32⟩
  | .hbm, ⟨48, _⟩ => ⟨S3200000x1, .i32⟩
  | .hbm, ⟨49, _⟩ => ⟨S100000x16, .f32⟩
  | .hbm, ⟨50, _⟩ => ⟨S100000x16, .f32⟩
  | .hbm, ⟨51, _⟩ => ⟨S1x16, .f32⟩
  | .hbm, ⟨52, _⟩ => ⟨S100000x16, .f32⟩
  | .hbm, ⟨53, _⟩ => ⟨S100000x16, .f32⟩
  | .hbm, ⟨54, _⟩ => ⟨S100000x16, .f32⟩
  | .hbm, ⟨55, _⟩ => ⟨S100000x16, .f32⟩
  | .hbm, ⟨56, _⟩ => ⟨S_, .i32⟩
  | .hbm, ⟨57, _⟩ => ⟨S3200000, .i32⟩
  | .hbm, ⟨58, _⟩ => ⟨S3200000, .i1⟩
  | .hbm, ⟨59, _⟩ => ⟨S_, .i32⟩
  | .hbm, ⟨60, _⟩ => ⟨S3200000, .i32⟩
  | .hbm, ⟨61, _⟩ => ⟨S3200000, .i32⟩
  | .hbm, ⟨62, _⟩ => ⟨S3200000, .i32⟩
  | .hbm, ⟨63, _⟩ => ⟨S3200000x1, .i32⟩
  | .hbm, ⟨64, _⟩ => ⟨S3200000x16, .f32⟩
  | .hbm, ⟨65, _⟩ => ⟨S_, .f32⟩
  | .hbm, ⟨66, _⟩ => ⟨S100000x16, .f32⟩
  | .hbm, ⟨67, _⟩ => ⟨S3200000x1, .i32⟩
  | .hbm, ⟨68, _⟩ => ⟨S100000x16, .f32⟩
  | .hbm, ⟨69, _⟩ => ⟨S100000x1, .f32⟩
  | .hbm, ⟨70, _⟩ => ⟨S1x1, .f32⟩
  | .hbm, ⟨71, _⟩ => ⟨S100000x1, .f32⟩
  | .hbm, ⟨72, _⟩ => ⟨S100000x1, .f32⟩
  | .hbm, ⟨73, _⟩ => ⟨S100000x1, .f32⟩
  | .hbm, ⟨74, _⟩ => ⟨S100000x1, .f32⟩
  | .hbm, ⟨75, _⟩ => ⟨S_, .f32⟩
  | .hbm, ⟨76, _⟩ => ⟨S100000x1, .f32⟩
  | .hbm, ⟨77, _⟩ => ⟨S100000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_4 : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x1 : S_.BroadcastsInDim S100000x1 (![] : Fin 0 → Fin S100000x1.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  dot_S100000x1_S1x16_S100000x16_1_0_0_1_n_n_wf : DotDims.WF S100000x1 S1x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S100000x16_S16x1_S100000x1_1_0_0_1_n_n_wf : DotDims.WF S100000x16 S16x1 S100000x1 [1] [0] [0] [1] [] []

variable [Facts₀]

def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.LibFinite.lean ====
/-
  Finiteness is preserved by every operation between the inputs and the first linear layer's output, on the extended reals.

  An extended real IS REAL when it is the coercion of a real number (it is neither infinity); an array IS REAL when every
  entry is. Sums, differences and products of real numbers are real, so a finite sum of real entries is real; hence so are
  the entries of an elementwise sum, difference or product of real arrays, of a matrix product of real arrays (a finite
  sum of products, plus the accumulator's entry), of a sum over some axes, and of a scatter with addition (the operand's
  entry plus a finite sum of update entries). A gather, a broadcast, a transposition, a reshape and a slice only re-index:
  each entry of the result is an entry of the operand — whatever the start indices hold, since an out-of-range start index is
  clamped into the operand — so the result of a real operand is real. A quotient by a nonzero real number is real, and
  a change of float format is the identity.
-/
import Idealize.ShloMosaic.PureOps.Ideal.Laws
import Idealize.ShloMosaic.Lib.ValueIdx

noncomputable section

namespace Cert.Finite

open Idealize.ShloMosaic
open scoped BigOperators

/-! ## Real values -/

/-- An extended real that is (the coercion of) a real number. -/
def IsRealVal (x : EReal) : Prop := ∃ q : ℝ, x = (q : EReal)

/-- An array of extended reals every entry of which is a real number. -/
def IsReal {ι : Type*} (v : ι → EReal) : Prop := ∀ i, ∃ q : ℝ, v i = (q : EReal)

theorem IsReal.apply {ι : Type*} {v : ι → EReal} (h : IsReal v) (i : ι) : IsRealVal (v i) := h i

theorem isReal_iff {ι : Type*} (v : ι → EReal) : IsReal v ↔ ∀ i, IsRealVal (v i) := Iff.rfl

theorem IsRealVal.coe (q : ℝ) : IsRealVal (q : EReal) := ⟨q, rfl⟩

theorem IsRealVal.zero : IsRealVal 0 := ⟨0, EReal.coe_zero.symm⟩

theorem IsRealVal.one : IsRealVal 1 := ⟨1, EReal.coe_one.symm⟩

theorem IsRealVal.add {x y : EReal} (hx : IsRealVal x) (hy : IsRealVal y) : IsRealVal (x + y) := by
  obtain ⟨a, rfl⟩ := hx; obtain ⟨b, rfl⟩ := hy
  exact ⟨a + b, (EReal.coe_add a b).symm⟩

theorem IsRealVal.sub {x y : EReal} (hx : IsRealVal x) (hy : IsRealVal y) : IsRealVal (x - y) := by
  obtain ⟨a, rfl⟩ := hx; obtain ⟨b, rfl⟩ := hy
  exact ⟨a - b, (EReal.coe_sub a b).symm⟩

theorem IsRealVal.mul {x y : EReal} (hx : IsRealVal x) (hy : IsRealVal y) : IsRealVal (x * y) := by
  obtain ⟨a, rfl⟩ := hx; obtain ⟨b, rfl⟩ := hy
  exact ⟨a * b, (EReal.coe_mul a b).symm⟩

theorem IsRealVal.neg {x : EReal} (hx : IsRealVal x) : IsRealVal (-x) := by
  obtain ⟨a, rfl⟩ := hx
  exact ⟨-a, (EReal.coe_neg a).symm⟩

theorem IsRealVal.ne_top {x : EReal} (hx : IsRealVal x) : x ≠ ⊤ := by
  obtain ⟨a, rfl⟩ := hx; exact EReal.coe_ne_top a

theorem IsRealVal.ne_bot {x : EReal} (hx : IsRealVal x) : x ≠ ⊥ := by
  obtain ⟨a, rfl⟩ := hx; exact EReal.coe_ne_bot a

/-- An extended real other than the two infinities is a real number. -/
theorem isRealVal_of_ne {x : EReal} (ht : x ≠ ⊤) (hb : x ≠ ⊥) : IsRealVal x := by
  induction x using EReal.rec with
  | bot => exact absurd rfl hb
  | top => exact absurd rfl ht
  | coe r => exact ⟨r, rfl⟩

/-- An extended real whose absolute value `max x (-x)` is below `+∞` is a real number. -/
theorem isRealVal_of_abs_lt_top {x : EReal} (h : max x (-x) < ⊤) : IsRealVal x := by
  induction x using EReal.rec with
  | bot => simp at h
  | top => simp at h
  | coe r => exact ⟨r, rfl⟩

/-- The precondition's test, on one element: the host's `|x| < t` answers `1` for a bound `t` that denotes `+∞` only
    at a real number `x`. -/
theorem isRealVal_of_cmpf_abs {φ : FTy} (x t : Ideal φ) (ht : t = (⊤ : EReal))
    (h : FloatOps.cmpf .olt (FloatOps.hostAbsf x) t = 1#1) : IsRealVal x := by
  subst ht
  apply isRealVal_of_abs_lt_top
  by_contra hn
  have : FloatOps.cmpf (F := Ideal) (φ := φ) .olt (FloatOps.hostAbsf x) (⊤ : EReal) = 0#1 := by
    show Ideal.cmp .olt (max x (-x)) ⊤ = 0#1
    simp only [Ideal.cmp]
    rw [decide_eq_false hn]; rfl
  rw [this] at h
  exact absurd h (by decide)

/-- A finite sum of real numbers is a real number. -/
theorem IsRealVal.sum {ι : Type*} (s : Finset ι) (f : ι → EReal) (hf : ∀ i ∈ s, IsRealVal (f i)) :
    IsRealVal (∑ i ∈ s, f i) := by
  classical
  induction s using Finset.induction_on with
  | empty => rw [Finset.sum_empty]; exact IsRealVal.zero
  | insert a s ha ih =>
    rw [Finset.sum_insert ha]
    exact (hf a (Finset.mem_insert_self a s)).add (ih fun i hi => hf i (Finset.mem_insert_of_mem hi))

/-- A quotient of a real number by a nonzero real number is a real number. -/
theorem IsRealVal.div_coe {x : EReal} (hx : IsRealVal x) {N : ℝ} (hN : N ≠ 0) : IsRealVal (Ideal.div x (N : EReal)) := by
  rw [Ideal.div_coe hN]
  exact hx.mul (IsRealVal.coe _)

/-! ## Re-indexings: each entry of the result is an entry of the operand -/

/-- Reading a real array through any map of indices gives a real array. -/
theorem IsReal.comp {ι κ : Type*} {v : ι → EReal} (hv : IsReal v) (f : κ → ι) : IsReal (fun j => v (f j)) :=
  fun j => hv (f j)

/-- A gather's entry is the operand's at the operand index of the result index: the start index read off the index array,
    clamped so that the slice fits, plus the batch and offset coordinates — an index of the operand whatever the start
    indices hold. -/
theorem gather_apply {α : Type} {s si t : Shape} {w : Nat} (d : GatherDims s si t) (x : s.Idx → α) (idx : IVec si w) (j : t.Idx) :
    Host.gather d x idx j = x (d.operandIdx j idx) := rfl

/-- So a gather of a real array is real, at any dimension numbers and any start indices. -/
theorem IsReal.gather {s si t : Shape} {w : Nat} {φ : FTy} (d : GatherDims s si t) {x : FVec Ideal s φ} (hx : IsReal x)
    (idx : IVec si w) : IsReal (Host.gather d x idx) :=
  fun j => hx (d.operandIdx j idx)

theorem IsReal.broadcastInDim {s t : Shape} {φ : FTy} (dims : Fin s.rank → Fin t.rank) (h : s.BroadcastsInDim t dims)
    {x : FVec Ideal s φ} (hx : IsReal x) : IsReal (broadcastInDim t dims h x) :=
  fun _ => hx _

theorem IsReal.transpose {s t : Shape} {φ : FTy} (perm : List (Fin s.rank)) (h : s.Transposes perm t)
    {x : FVec Ideal s φ} (hx : IsReal x) : IsReal (transpose t perm x h) :=
  fun _ => hx _

theorem IsReal.shapeCast {s t : Shape} {φ : FTy} (h : s.ShapeCasts t) {x : FVec Ideal s φ} (hx : IsReal x) :
    IsReal (shapeCast t x h) :=
  fun _ => hx _

theorem IsReal.extractStridedSlice {s t : Shape} {φ : FTy} (off : Fin s.rank → Nat) (h : s.Slices off t)
    {x : FVec Ideal s φ} (hx : IsReal x) : IsReal (extractStridedSlice t off x h) :=
  fun _ => hx _

/-- A constant array is real when its pattern denotes a real number. -/
theorem IsReal.constant (s : Shape) (φ : FTy) (b : BitVec φ.bits) (hb : IsRealVal (Ideal.ofBits φ b)) :
    IsReal (constant (F := Ideal) s φ b) :=
  fun _ => hb

/-- The zero array (the pattern `+0.0` at `f32`) is real. -/
theorem IsReal.constant_zero_f32 (s : Shape) : IsReal (Idealize.ShloMosaic.constant (F := Ideal) s .f32 0x00000000#32) :=
  fun _ => ⟨0, by show Ideal.ofBits .f32 0x00000000#32 = _; rw [Ideal.ofBits_zero_f32, EReal.coe_zero]⟩

/-- A change of float format is the identity on the extended reals. -/
theorem IsReal.truncf {s : Shape} {φ ψ : FTy} {x : FVec Ideal s φ} (hx : IsReal x) (h : ψ.bits < φ.bits) :
    IsReal (truncf ψ x h : FVec Ideal s ψ) :=
  fun i => hx i

theorem IsReal.extf {s : Shape} {φ ψ : FTy} {x : FVec Ideal s φ} (hx : IsReal x) (h : φ.bits < ψ.bits) :
    IsReal (extf ψ x h : FVec Ideal s ψ) :=
  fun i => hx i

/-! ## Elementwise arithmetic -/

theorem IsReal.addf {s : Shape} {φ : FTy} {a b : FVec Ideal s φ} (ha : IsReal a) (hb : IsReal b) : IsReal (addf a b) :=
  fun i => (ha.apply i).add (hb.apply i)

theorem IsReal.subf {s : Shape} {φ : FTy} {a b : FVec Ideal s φ} (ha : IsReal a) (hb : IsReal b) : IsReal (subf a b) :=
  fun i => (ha.apply i).sub (hb.apply i)

theorem IsReal.mulf {s : Shape} {φ : FTy} {a b : FVec Ideal s φ} (ha : IsReal a) (hb : IsReal b) : IsReal (mulf a b) :=
  fun i => (ha.apply i).mul (hb.apply i)

/-- The host's quotient by an array whose entries are one nonzero real number. -/
theorem IsReal.hostDivf_coe {s : Shape} {φ : FTy} {a b : FVec Ideal s φ} (ha : IsReal a) {N : ℝ} (hN : N ≠ 0)
    (hb : ∀ i, b i = (N : EReal)) : IsReal (Host.divf a b) := fun i => by
  show IsRealVal (Ideal.div (a i) (b i))
  rw [hb i]
  exact (ha.apply i).div_coe hN

/-! ## Contractions and sums -/

/-- A kernel's matrix product of real arrays onto a real accumulator is real: at an index, the accumulator's entry plus the
    finite sum over the contraction index of the products of the operands' entries. -/
theorem IsReal.matmul {sl sr so : Shape} {φ₁ φ₂ : FTy} (d : DotDims sl sr so) (prec : Option ContractPrecision)
    {lhs : FVec Ideal sl φ₁} {rhs : FVec Ideal sr φ₂} {acc : FVec Ideal so .f32} (hl : IsReal lhs) (hr : IsReal rhs)
    (ha : IsReal acc) : IsReal (FloatOps.matmul d prec lhs rhs acc) := fun j => by
  rw [Ideal.matmul_apply]
  exact (ha.apply j).add (IsRealVal.sum _ _ fun k _ => (hl.apply _).mul (hr.apply _))

/-- The host's `dot_general` of real arrays is real: the same finite sum of products, onto zero. -/
theorem IsReal.dotGeneral {sl sr so : Shape} {φ₁ φ₂ : FTy} (d : DotDims sl sr so) (prec : Option ContractPrecision)
    (sched : HostSchedule) {lhs : FVec Ideal sl φ₁} {rhs : FVec Ideal sr φ₂} (hl : IsReal lhs) (hr : IsReal rhs) :
    IsReal (FloatOps.dotGeneral d prec sched lhs rhs) := fun j => by
  rw [Ideal.dotGeneral_apply]
  exact IsRealVal.sum _ _ fun k _ => (hl.apply _).mul (hr.apply _)

/-- The host's sum over some axes of a real array from a real initial value is real: at an index, the initial value plus
    the finite sum of the operand's entries that reduce to it. -/
theorem IsReal.hostReduceAdd {s t u : Shape} {φ : FTy} {axes : List (Fin s.rank)} {x : FVec Ideal s φ} (hx : IsReal x)
    {init : u.Idx → Ideal φ} (hi : IsReal init) (h : s.ReducesTo axes t) (hu : 0 < u.numel) :
    IsReal (Host.reduceAdd x init h hu) := fun j => by
  show IsRealVal (Ideal.hostReduceAdd h x (init (Shape.Idx.first hu)) j)
  unfold Ideal.hostReduceAdd
  exact (hi.apply _).add (IsRealVal.sum _ _ fun i _ => hx.apply i)

/-- A kernel's sum over some axes of a real array is real. -/
theorem IsReal.reduceAdd {s t : Shape} {axes : List (Fin s.rank)} (h : s.Reduces axes t) {x : s.Idx → EReal} (hx : IsReal x) :
    IsReal (Ideal.reduceAdd h x) := fun j => by
  unfold Ideal.reduceAdd
  exact IsRealVal.sum _ _ fun i _ => hx.apply i

/-- … as the printed `vector.multi_reduction <add>` spells it. -/
theorem IsReal.multiReduction_add {s t : Shape} {φ : FTy} {axes : List (Fin s.rank)} {src : FVec Ideal s φ} (hx : IsReal src)
    (acc : BitVec φ.bits) (h : s.Reduces axes t) (hφ : FKind.Formats φ) (hacc : acc = FKind.add.neutral φ hφ) :
    IsReal (multiReduction .add axes t src acc h hφ hacc) :=
  IsReal.reduceAdd h hx

/-- A scatter with addition, read at an index: the operand's entry plus the finite sum of the update entries whose result
    index is that index (an update that lands outside the operand is dropped). -/
theorem scatterAdd_apply {s si u : Shape} {w : Nat} {φ : FTy} (d : ScatterDims s si u) (x : FVec Ideal s φ) (idx : IVec si w)
    (upd : FVec Ideal u φ) (i : s.Idx) :
    Host.scatterAdd d x idx upd i = x i + ∑ j ∈ Finset.univ.filter (fun j => d.resultIdx? j idx = some i), upd j := rfl

/-- So a scatter with addition of real updates into a real operand is real, at any dimension numbers and any indices. -/
theorem IsReal.scatterAdd {s si u : Shape} {w : Nat} {φ : FTy} (d : ScatterDims s si u) {x : FVec Ideal s φ} (hx : IsReal x)
    (idx : IVec si w) {upd : FVec Ideal u φ} (hu : IsReal upd) : IsReal (Host.scatterAdd d x idx upd) := fun i => by
  rw [scatterAdd_apply]
  exact (hx.apply i).add (IsRealVal.sum _ _ fun j _ => hu.apply j)

end Cert.Finite

end
-- ==== Proof.Spec.lean ====
/-
  The two programs as functions of their argument arrays, and why they agree.

  A graph-convolution layer maps node features `F` (one row per node) to `S(F)·W_rel + F·W_root + b`, where `S(F)` is the
  neighbour sum: row `i` of `S(F)` is the sum of the rows `F[src e]` over the edges `e` with `dst e = i`. Both programs
  stack three layers (1 → 16 → 16 → 1 features) with `max(·, 0)` after the first and the last.

  They differ in two ways. First, the grouping of a layer's three summands: one adds the bias last, the other adds it
  between the two products; addition of extended reals is commutative and associative, so this never matters. Second, the
  last layer: one program forms `S(Z)·w` (a 16-wide neighbour sum, then the product with the 16×1 weight), the other
  `S(Z·w)` (the product first, then a 1-wide neighbour sum). These agree because a product distributes over a finite sum
  — of REAL numbers; on the extended reals `(a + b)·w = a·w + b·w` fails when `a` and `b` are opposite infinities, so the
  statement needs every entry of `Z` and `w` to be a real number, which holds when the inputs are finite.

  The neighbour sums enter as two abstract operators (1-wide and 16-wide) with the three properties used: each maps real
  arrays to real arrays, and `S₁(Z·w) = S₁₆(Z)·w` for real `Z` and `w`.
-/
import Idealize.ShloMosaic.PureOps.Ideal.Laws
import Idealize.ShloMosaic.Lib.ValueIdx
import proofs.«114869_j2929167695879_2_alg».proof.Proof.LibFinite

noncomputable section

namespace Cert.Spec

open Idealize.ShloMosaic Idealize.ShloMosaic.ValueIdx Cert.Finite
open scoped BigOperators

/-- An `n × p` array of extended reals. -/
abbrev Mat (n p : Nat) : Type := (⟨2, ![n, p]⟩ : Shape).Idx → EReal
/-- A vector of `n` extended reals. -/
abbrev Vc (n : Nat) : Type := (⟨1, ![n]⟩ : Shape).Idx → EReal

/-- The matrix product: entry `(r, q)` is `∑ c, A[r, c] · W[c, q]`. -/
def lin {n k p : Nat} (A : Mat n k) (W : Mat k p) : Mat n p :=
  fun i => ∑ c : Fin k, A (ix2 (n0 := n) (n1 := k) (i 0) c) * W (ix2 (n0 := k) (n1 := p) c (i 1))

/-- The value the pattern `+0.0` denotes. -/
def zero32 : EReal := Ideal.ofBits .f32 0x00000000#32

theorem zero32_eq : zero32 = 0 := by
  unfold zero32; exact Ideal.ofBits_zero_f32

/-- `max(v, 0)`. -/
def relu (v : EReal) : EReal := max v zero32

/-- A layer with the bias added last: `(A·Wr + R·Wo) + b`. -/
def combLast {n k p : Nat} (A R : Mat n k) (Wr Wo : Mat k p) (b : Vc p) : Mat n p :=
  fun i => lin A Wr i + lin R Wo i + b (ix1 (n := p) (i 1))

/-- A layer with the bias added between the products: `(A·Wr + b) + R·Wo`. -/
def combMid {n k p : Nat} (A R : Mat n k) (Wr Wo : Mat k p) (b : Vc p) : Mat n p :=
  fun i => lin A Wr i + b (ix1 (n := p) (i 1)) + lin R Wo i

/-- The two groupings are one function: addition is commutative and associative on the extended reals. -/
theorem combLast_eq_combMid {n k p : Nat} (A R : Mat n k) (Wr Wo : Mat k p) (b : Vc p) :
    combLast A R Wr Wo b = combMid A R Wr Wo b :=
  funext fun _ => add_right_comm _ _ _

section Layers

variable (agg1 : Mat 100000 1 → Mat 100000 1) (agg16 : Mat 100000 16 → Mat 100000 16)
variable (x : Mat 100000 1) (encRel encRoot : Mat 1 16) (encB : Vc 16)
  (procRel procRoot : Mat 16 16) (procB : Vc 16) (decRel decRoot : Mat 16 1) (decB : Vc 1)

/-- First layer, bias last, then `max(·, 0)`. -/
def hidden1 : Mat 100000 16 := fun i => relu (combLast (agg1 x) x encRel encRoot encB i)

/-- Second layer on a given first-layer output, bias last. -/
def hidden2 (z1 : Mat 100000 16) : Mat 100000 16 := combLast (agg16 z1) z1 procRel procRoot procB

/-- Third layer with the weight applied BEFORE the neighbour sum, bias last, then `max(·, 0)`. -/
def outPushed (z2 : Mat 100000 16) : Mat 100000 1 :=
  fun i => relu (agg1 (lin z2 decRel) i + lin z2 decRoot i + decB (ix1 (n := 1) (i 1)))

/-- The program that pushes the last weight through the neighbour sum. -/
def pushed : Mat 100000 1 :=
  outPushed agg1 decRel decRoot decB (hidden2 agg16 procRel procRoot procB (hidden1 agg1 x encRel encRoot encB))

/-- First layer, bias in the middle, then `max(·, 0)`. -/
def hidden1' : Mat 100000 16 := fun i => relu (combMid (agg1 x) x encRel encRoot encB i)

/-- Second layer, bias in the middle. -/
def hidden2' (z1 : Mat 100000 16) : Mat 100000 16 := combMid (agg16 z1) z1 procRel procRoot procB

/-- Third layer with the neighbour sum first, bias in the middle, then `max(·, 0)`. -/
def outPlain (z2 : Mat 100000 16) : Mat 100000 1 :=
  fun i => relu (combMid (agg16 z2) z2 decRel decRoot decB i)

/-- The plain stack of three layers. -/
def plain : Mat 100000 1 :=
  outPlain agg16 decRel decRoot decB (hidden2' agg16 procRel procRoot procB (hidden1' agg1 x encRel encRoot encB))

end Layers

/-! ## Real arrays stay real -/

theorem isRealVal_zero32 : IsRealVal zero32 := by rw [zero32_eq]; exact IsRealVal.zero

theorem isRealVal_relu {v : EReal} (hv : IsRealVal v) : IsRealVal (relu v) := by
  unfold relu
  rcases max_choice v zero32 with h | h <;> rw [h]
  · exact hv
  · exact isRealVal_zero32

theorem isReal_lin {n k p : Nat} {A : Mat n k} {W : Mat k p} (hA : IsReal A) (hW : IsReal W) : IsReal (lin A W) :=
  fun _ => IsRealVal.sum _ _ fun _ _ => (hA.apply _).mul (hW.apply _)

theorem isReal_combLast {n k p : Nat} {A R : Mat n k} {Wr Wo : Mat k p} {b : Vc p} (hA : IsReal A) (hR : IsReal R)
    (hWr : IsReal Wr) (hWo : IsReal Wo) (hb : IsReal b) : IsReal (combLast A R Wr Wo b) :=
  fun i => (((isReal_lin hA hWr).apply i).add ((isReal_lin hR hWo).apply i)).add (hb.apply _)

/-! ## The two programs agree on real inputs -/

theorem pushed_eq_plain (agg1 : Mat 100000 1 → Mat 100000 1) (agg16 : Mat 100000 16 → Mat 100000 16)
    (h1 : ∀ v, IsReal v → IsReal (agg1 v)) (h16 : ∀ v, IsReal v → IsReal (agg16 v))
    (x : Mat 100000 1) (encRel encRoot : Mat 1 16) (encB : Vc 16)
    (procRel procRoot : Mat 16 16) (procB : Vc 16) (decRel decRoot : Mat 16 1) (decB : Vc 1)
    (hlin : ∀ Z : Mat 100000 16, IsReal Z → agg1 (lin Z decRel) = lin (agg16 Z) decRel)
    (hx : IsReal x) (hER : IsReal encRel) (hEO : IsReal encRoot) (hEB : IsReal encB)
    (hPR : IsReal procRel) (hPO : IsReal procRoot) (hPB : IsReal procB) :
    pushed agg1 agg16 x encRel encRoot encB procRel procRoot procB decRel decRoot decB
      = plain agg1 agg16 x encRel encRoot encB procRel procRoot procB decRel decRoot decB := by
  have e1 : hidden1 agg1 x encRel encRoot encB = hidden1' agg1 x encRel encRoot encB := by
    unfold hidden1 hidden1'; rw [combLast_eq_combMid]
  have r1 : IsReal (hidden1 agg1 x encRel encRoot encB) := fun i =>
    isRealVal_relu ((isReal_combLast (h1 x hx) hx hER hEO hEB).apply i)
  have r2 : IsReal (hidden2 agg16 procRel procRoot procB (hidden1 agg1 x encRel encRoot encB)) :=
    isReal_combLast (h16 _ r1) r1 hPR hPO hPB
  have e2 : hidden2 agg16 procRel procRoot procB (hidden1 agg1 x encRel encRoot encB)
      = hidden2' agg16 procRel procRoot procB (hidden1' agg1 x encRel encRoot encB) := by
    rw [← e1]; unfold hidden2 hidden2'; rw [combLast_eq_combMid]
  unfold pushed plain
  rw [← e2]
  funext i
  unfold outPushed outPlain combMid
  rw [hlin _ r2, add_right_comm]

/-! ## The neighbour sum, as the two programs compute it

  Edge `e` carries a source node and a destination node, each one 32-bit integer in an `E × 1` array. Gathering rows of
  the feature array at the source entries (read signed and clamped into range) gives one row per edge; adding these rows
  into a zero array at the destination entries (read signed; an entry out of range contributes nothing) gives the sum. -/

/-- Row gather: result row `e` is the operand's row at start index `idx[e, 0]`. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Row scatter: update row `e` lands on the operand's row `idx[e, 0]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The neighbour sum of an `N × C` feature array over `E` edges with source entries `src` and destination entries `dst`. -/
def nbrSum (N E C : Nat)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (src dst : IVec ⟨2, ![E, 1]⟩ 32) (Fe : Mat N C) : Mat N C :=
  Host.scatterAdd (F := Ideal) (φ := .f32) (rowScatter N E C wfs) (fun _ => zero32) dst
    (Host.gather (rowGather N E C wfg) Fe src)

end Cert.Spec

end
-- ==== Proof.KMat.lean ====
/-
  A matrix product read at an index.

  With no batch axes, rows times contraction on the left and contraction times columns on the right, the product accumulated
  onto zero has at (r, q) the value ∑ c, A[r, c] · W[c, q]: the sum over the one contraction axis, re-indexed by its coordinate.
-/
import Idealize.ShloMosaic.PureOps.Ideal.Laws
import Idealize.ShloMosaic.Lib.ValueIdx
import Idealize.ShloMosaic.Lib.Pipeline.Value
import proofs.«114869_j2929167695879_2_alg».proof.Proof.Spec

noncomputable section

namespace Cert.KMat

open Idealize.ShloMosaic Idealize.ShloMosaic.ValueIdx Cert.Spec
open scoped BigOperators

/-- The product of an `M × K` by a `K × N` array onto the zero array is `Spec.lin` of the two, whatever the operands' formats. -/
theorem matmul_plain_eq_lin (M K N : Nat) {φ₁ φ₂ : FTy} (A : FVec Ideal ⟨2, ![M, K]⟩ φ₁) (W : FVec Ideal ⟨2, ![K, N]⟩ φ₂) :
    FloatOps.matmul (DotDims.plain M K N) none A W (constant (F := Ideal) ⟨2, ![M, N]⟩ .f32 0x00000000#32) = lin A W := by
  funext j
  rw [Ideal.matmul_constant_zero_apply, ← Equiv.sum_comp (contrEquiv1 (DotDims.plain M K N) K rfl rfl).symm]
  unfold lin
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (n0 := M) (n1 := K) (j 0) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 (n0 := K) (n1 := N) k (j 1) :=
    funext fun a => Fin.ext (by
      match a with
      | ⟨0, _⟩ => exact ((DotDims.plain M K N).rhsIdx_val_of_single rfl j _).trans hk
      | ⟨1, _⟩ => rfl)
  rw [el, er]

/-- The one row of a `1 × p` array, as a vector. -/
def rowOf {p : Nat} (B : Mat 1 p) : Vc p := fun j => B (ix2 (n0 := 1) (n1 := p) 0 (j 0))

/-- A product read at an index uses one row of the left factor and one column of the right: if the rows and columns of two
    pairs of factors agree there, so do the products. -/
theorem lin_congr {n n' k p p' : Nat} (A' : Mat n' k) (A : Mat n k) (W' : Mat k p') (W : Mat k p)
    (j : (⟨2, ![n', p']⟩ : Shape).Idx) (i : (⟨2, ![n, p]⟩ : Shape).Idx)
    (hA : ∀ c : Fin k, A' (ix2 (n0 := n') (n1 := k) (j 0) c) = A (ix2 (n0 := n) (n1 := k) (i 0) c))
    (hW : ∀ c : Fin k, W' (ix2 (n0 := k) (n1 := p') c (j 1)) = W (ix2 (n0 := k) (n1 := p) c (i 1))) :
    lin A' W' j = lin A W i :=
  Finset.sum_congr rfl fun c _ => by rw [hA c, hW c]

end Cert.KMat

end
-- ==== Proof.KReg0.lean ====
/-
  The first kernel region: z₁ = max(A · W_rel + X · W_root + b, 0), rows 10000·p … 10000·p + 9999 at grid point p.

  A is the neighbour sum of the node features X (both 100000 × 1), the two weights are 1 × 16 and the bias, reshaped by the host
  to 1 × 16, is added to every row. At point p the body loads rows 10000·p … of A and of X and the whole weights and bias; row r
  of its result depends on row r of A and of X only, so what point p writes back is block p of the layer applied to the WHOLE
  arrays. The ten blocks cover the output array.
-/
import proofs.«114869_j2929167695879_2_alg».proof.Proof.Gen.KernelIdeal.Frame
import proofs.«114869_j2929167695879_2_alg».proof.Proof.KMat
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KReg0

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The layer on whole arrays, bias added last. -/
def layer (A X : Mat 100000 1) (Wr Wo B : Mat 1 16) : Mat 100000 16 :=
  fun i => relu (combLast A X Wr Wo (KMat.rowOf B) i)

/-- The body's arithmetic on its loaded blocks is the layer on 10000 rows. -/
theorem pay_eq (x0 x1 : Vec Ideal S10000x1 .f32) (x2 x3 x4 : Vec Ideal S1x16 .f32) (j : S10000x16.Idx) :
    k0_pay1 x0 x1 x2 x3 x4 j
      = relu (combLast (n := 10000) (k := 1) (p := 16) x0 x1 x2 x3 (KMat.rowOf x4) j) := by
  have e : k0_pay1 x0 x1 x2 x3 x4
      = maximumf (addf (addf
          (FloatOps.matmul (DotDims.plain 10000 1 16) none (shapeCast S10000x1 x0 shapeCasts_S10000x1_S10000x1) x2
            (constant (F := Ideal) S10000x16 .f32 0x00000000#32))
          (FloatOps.matmul (DotDims.plain 10000 1 16) none x1 x3 (constant (F := Ideal) S10000x16 .f32 0x00000000#32)))
          (broadcastTo S10000x16 (shapeCast S1x16 x4 shapeCasts_S1x16_S1x16) broadcasts_S1x16_S10000x16))
        (broadcast S10000x16 (Ideal.ofBits .f32 0x00000000#32)) := rfl
  rw [e, shapeCast_self, shapeCast_self, KMat.matmul_plain_eq_lin, KMat.matmul_plain_eq_lin]
  show max (lin (n := 10000) (k := 1) (p := 16) x0 x2 j + lin (n := 10000) (k := 1) (p := 16) x1 x3 j
      + broadcastTo S10000x16 x4 broadcasts_S1x16_S10000x16 j) (Ideal.ofBits .f32 0x00000000#32) = _
  rw [broadcastTo_apply x4 broadcasts_S1x16_S10000x16 j (ix2 (n0 := 1) (n1 := 16) 0 (j 1))
    (fun a => by match a with | ⟨0, _⟩ => rfl | ⟨1, _⟩ => rfl)]
  rfl

/-- Where the index maps send a point. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer on the whole arrays. -/
theorem flushed_eq (c : Dev nD) (t : Fin cfg0.N) :
    (dat0 V c).flushed 5 t = ((cfg0.win 5).blk t).view.read (Elt Ideal)
      (layer (V c main_v13) (V c main_arg0) (V c main_arg2) (V c main_arg3) (V c main_v14)) := by
  show (cfg0.win 5).cut (grid0.coords t) ((dat0 V c).after 5 t) = _
  rw [after0_5]
  unfold out0_5
  rw [View.canon_unit_zero hz]
  simp only [View.ld_unit_zero (S := S10000x1) hz, View.ld_unit_zero (S := S1x16) hz]
  obtain ⟨a0, a1, b0, b1, c0, c1, d0, d1, f0, f1, g0, g1⟩ := idx_facts t
  funext j
  show k0_pay1 (iblk0 V c 0 t) (iblk0 V c 1 t) (iblk0 V c 2 t) (iblk0 V c 3 t) (iblk0 V c 4 t) j
    = layer (V c main_v13) (V c main_arg0) (V c main_arg2) (V c main_arg3) (V c main_v14) (((cfg0.win 5).blk t).view.emb j)
  rw [pay_eq]
  unfold layer combLast
  have hA : ∀ k : Fin 1, iblk0 V c 0 t (ix2 (n0 := 10000) (n1 := 1) (j 0) k)
      = V c main_v13 (ix2 (n0 := 100000) (n1 := 1) ((((cfg0.win 5).blk t).view.emb j) 0) k) := fun k => by
    show V c main_v13 (((cfg0.win 0).blk t).view.emb (ix2 (n0 := 10000) (n1 := 1) (j 0) k)) = _
    refine congrArg _ (funext fun a => Fin.ext ?_)
    match a with
    | ⟨0, _⟩ => show win0_0.index t (0 : Fin 2) * 10000 + 1 * (j 0).val = win0_5.index t (0 : Fin 2) * 10000 + 1 * (j 0).val; omega
    | ⟨1, _⟩ => show win0_0.index t (1 : Fin 2) * 1 + 1 * k.val = k.val; omega
  have hX : ∀ k : Fin 1, iblk0 V c 1 t (ix2 (n0 := 10000) (n1 := 1) (j 0) k)
      = V c main_arg0 (ix2 (n0 := 100000) (n1 := 1) ((((cfg0.win 5).blk t).view.emb j) 0) k) := fun k => by
    show V c main_arg0 (((cfg0.win 1).blk t).view.emb (ix2 (n0 := 10000) (n1 := 1) (j 0) k)) = _
    refine congrArg _ (funext fun a => Fin.ext ?_)
    match a with
    | ⟨0, _⟩ => show win0_1.index t (0 : Fin 2) * 10000 + 1 * (j 0).val = win0_5.index t (0 : Fin 2) * 10000 + 1 * (j 0).val; omega
    | ⟨1, _⟩ => show win0_1.index t (1 : Fin 2) * 1 + 1 * k.val = k.val; omega
  have hWr : ∀ k : Fin 1, iblk0 V c 2 t (ix2 (n0 := 1) (n1 := 16) k (j 1))
      = V c main_arg2 (ix2 (n0 := 1) (n1 := 16) k ((((cfg0.win 5).blk t).view.emb j) 1)) := fun k => by
    show V c main_arg2 (((cfg0.win 2).blk t).view.emb (ix2 (n0 := 1) (n1 := 16) k (j 1))) = _
    refine congrArg _ (funext fun a => Fin.ext ?_)
    match a with
    | ⟨0, _⟩ => show win0_2.index t (0 : Fin 2) * 1 + 1 * k.val = k.val; omega
    | ⟨1, _⟩ => show win0_2.index t (1 : Fin 2) * 16 + 1 * (j 1).val = win0_5.index t (1 : Fin 2) * 16 + 1 * (j 1).val; omega
  have hWo : ∀ k : Fin 1, iblk0 V c 3 t (ix2 (n0 := 1) (n1 := 16) k (j 1))
      = V c main_arg3 (ix2 (n0 := 1) (n1 := 16) k ((((cfg0.win 5).blk t).view.emb j) 1)) := fun k => by
    show V c main_arg3 (((cfg0.win 3).blk t).view.emb (ix2 (n0 := 1) (n1 := 16) k (j 1))) = _
    refine congrArg _ (funext fun a => Fin.ext ?_)
    match a with
    | ⟨0, _⟩ => show win0_3.index t (0 : Fin 2) * 1 + 1 * k.val = k.val; omega
    | ⟨1, _⟩ => show win0_3.index t (1 : Fin 2) * 16 + 1 * (j 1).val = win0_5.index t (1 : Fin 2) * 16 + 1 * (j 1).val; omega
  have hB : KMat.rowOf (iblk0 V c 4 t) (ix1 (n := 16) (j 1))
      = KMat.rowOf (V c main_v14) (ix1 (n := 16) ((((cfg0.win 5).blk t).view.emb j) 1)) := by
    show V c main_v14 (((cfg0.win 4).blk t).view.emb (ix2 (n0 := 1) (n1 := 16) 0 (j 1))) = _
    refine congrArg _ (funext fun a => Fin.ext ?_)
    match a with
    | ⟨0, _⟩ => show win0_4.index t (0 : Fin 2) * 1 + 1 * 0 = 0; omega
    | ⟨1, _⟩ => show win0_4.index t (1 : Fin 2) * 16 + 1 * (j 1).val = win0_5.index t (1 : Fin 2) * 16 + 1 * (j 1).val; omega
  rw [KMat.lin_congr _ _ _ _ j _ hA hWr, KMat.lin_congr _ _ _ _ j _ hX hWo, hB]

/-- An index of the output array is in point `t`'s block iff each coordinate is in the block's range on its axis. -/
theorem mem_blk (t : Fin cfg0.N) (i : S100000x16.Idx) :
    i ∈ ((cfg0.win 5).blk t).view.set ↔ ∀ a : Fin 2, win0_5.index t a * S10000x16.size a ≤ (i a).val
      ∧ (i a).val < win0_5.index t a * S10000x16.size a + S10000x16.size a := by
  show i ∈ ((View.whole main_v15).slice (win0_5.rect t)).set ↔ _
  rw [View.set_slice_whole, Rect.mem_set_unit]
  exact Iff.rfl

/-- Every index lies in the block of the point its row falls in. -/
theorem cover (i : S100000x16.Idx) : ∃ t : Fin cfg0.N, (cfg0.win 5).flush t = true ∧ i ∈ ((cfg0.win 5).blk t).view.set := by
  have hi0 : (i 0).val < 100000 := (i 0).isLt
  have hi1 : (i 1).val < 16 := (i 1).isLt
  have hN : cfg0.N = 10 := N_0
  refine ⟨⟨(i 0).val / 10000, by rw [hN]; omega⟩, flush0_5 _, ?_⟩
  rw [mem_blk]
  obtain ⟨-, -, -, -, -, -, -, -, -, -, g0, g1⟩ := idx_facts ⟨(i 0).val / 10000, by rw [hN]; omega⟩
  intro a
  match a with
  | ⟨0, _⟩ =>
    show win0_5.index _ (0 : Fin 2) * 10000 ≤ (i 0).val ∧ (i 0).val < win0_5.index _ (0 : Fin 2) * 10000 + 10000
    rw [g0]; show (i 0).val / 10000 * 10000 ≤ (i 0).val ∧ (i 0).val < (i 0).val / 10000 * 10000 + 10000; omega
  | ⟨1, _⟩ =>
    show win0_5.index _ (1 : Fin 2) * 16 ≤ (i 1).val ∧ (i 1).val < win0_5.index _ (1 : Fin 2) * 16 + 16
    rw [g1]; omega

/-- The region's output array ends holding the layer applied to its input arrays as the region finds them. -/
theorem final (c : Dev nD) :
    (dat0 V c).arrAt 5 cfg0.N = layer (V c main_v13) (V c main_arg0) (V c main_arg2) (V c main_arg3) (V c main_v14) :=
  (dat0 V c).arrAt_eq_of_cover 5 _ (fun t _ => flushed_eq V c t) cover

end Cert.KReg0

end
-- ==== Proof.KReg1.lean ====
/-
  The second kernel region: z₂ = A · W_rel + Z · W_root + b, rows 10000·p … 10000·p + 9999 at grid point p.

  A is the neighbour sum of the first layer's output Z (both 100000 × 16), the two weights are 16 × 16 and the bias, reshaped by
  the host to 1 × 16, is added to every row. Row r of the body's result depends on row r of A and of Z only, so what point p
  writes back is block p of the layer applied to the WHOLE arrays, and the ten blocks cover the output array.
-/
import proofs.«114869_j2929167695879_2_alg».proof.Proof.Gen.KernelIdeal.Frame
import proofs.«114869_j2929167695879_2_alg».proof.Proof.KMat
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KReg1

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The layer on whole arrays, bias added last. -/
def layer (A Z : Mat 100000 16) (Wr Wo : Mat 16 16) (B : Mat 1 16) : Mat 100000 16 :=
  combLast A Z Wr Wo (KMat.rowOf B)

/-- The body's arithmetic on its loaded blocks is the layer on 10000 rows. -/
theorem pay_eq (x0 x1 : Vec Ideal S10000x16 .f32) (x2 x3 : Vec Ideal S16x16 .f32) (x4 : Vec Ideal S1x16 .f32)
    (j : S10000x16.Idx) :
    k1_pay1 x0 x1 x2 x3 x4 j = combLast (n := 10000) (k := 16) (p := 16) x0 x1 x2 x3 (KMat.rowOf x4) j := by
  have e : k1_pay1 x0 x1 x2 x3 x4
      = addf (addf
          (FloatOps.matmul (DotDims.plain 10000 16 16) none (shapeCast S10000x16 x0 shapeCasts_S10000x16_S10000x16) x2
            (constant (F := Ideal) S10000x16 .f32 0x00000000#32))
          (FloatOps.matmul (DotDims.plain 10000 16 16) none (shapeCast S10000x16 x1 shapeCasts_S10000x16_S10000x16) x3
            (constant (F := Ideal) S10000x16 .f32 0x00000000#32)))
          (broadcastTo S10000x16 (shapeCast S1x16 x4 shapeCasts_S1x16_S1x16) broadcasts_S1x16_S10000x16) := rfl
  rw [e, shapeCast_self, shapeCast_self, shapeCast_self, KMat.matmul_plain_eq_lin, KMat.matmul_plain_eq_lin]
  show lin (n := 10000) (k := 16) (p := 16) x0 x2 j + lin (n := 10000) (k := 16) (p := 16) x1 x3 j
      + broadcastTo S10000x16 x4 broadcasts_S1x16_S10000x16 j = _
  rw [broadcastTo_apply x4 broadcasts_S1x16_S10000x16 j (ix2 (n0 := 1) (n1 := 16) 0 (j 1))
    (fun a => by match a with | ⟨0, _⟩ => rfl | ⟨1, _⟩ => rfl)]
  rfl

/-- Where the index maps send a point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer on the whole arrays. -/
theorem flushed_eq (c : Dev nD) (t : Fin cfg1.N) :
    (dat1 V c).flushed 5 t = ((cfg1.win 5).blk t).view.read (Elt Ideal)
      (layer (V c main_v25) (V c main_v15) (V c main_arg5) (V c main_arg6) (V c main_v26)) := by
  show (cfg1.win 5).cut (grid1.coords t) ((dat1 V c).after 5 t) = _
  rw [after1_5]
  unfold out1_5
  rw [View.canon_unit_zero hz]
  simp only [View.ld_unit_zero (S := S10000x16) hz, View.ld_unit_zero (S := S16x16) hz, View.ld_unit_zero (S := S1x16) hz]
  obtain ⟨a0, a1, b0, b1, c0, c1, d0, d1, f0, f1, g0, g1⟩ := idx_facts t
  funext j
  show k1_pay1 (iblk1 V c 0 t) (iblk1 V c 1 t) (iblk1 V c 2 t) (iblk1 V c 3 t) (iblk1 V c 4 t) j
    = layer (V c main_v25) (V c main_v15) (V c main_arg5) (V c main_arg6) (V c main_v26) (((cfg1.win 5).blk t).view.emb j)
  rw [pay_eq]
  unfold layer combLast
  have hA : ∀ k : Fin 16, iblk1 V c 0 t (ix2 (n0 := 10000) (n1 := 16) (j 0) k)
      = V c main_v25 (ix2 (n0 := 100000) (n1 := 16) ((((cfg1.win 5).blk t).view.emb j) 0) k) := fun k => by
    show V c main_v25 (((cfg1.win 0).blk t).view.emb (ix2 (n0 := 10000) (n1 := 16) (j 0) k)) = _
    refine congrArg _ (funext fun a => Fin.ext ?_)
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 16 + 1 * k.val = k.val; omega
  have hX : ∀ k : Fin 16, iblk1 V c 1 t (ix2 (n0 := 10000) (n1 := 16) (j 0) k)
      = V c main_v15 (ix2 (n0 := 100000) (n1 := 16) ((((cfg1.win 5).blk t).view.emb j) 0) k) := fun k => by
    show V c main_v15 (((cfg1.win 1).blk t).view.emb (ix2 (n0 := 10000) (n1 := 16) (j 0) k)) = _
    refine congrArg _ (funext fun a => Fin.ext ?_)
    match a with
    | ⟨0, _⟩ => show win1_1.index t (0 : Fin 2) * 10000 + 1 * (j 0).val = win1_5.index t (0 : Fin 2) * 10000 + 1 * (j 0).val; omega
    | ⟨1, _⟩ => show win1_1.index t (1 : Fin 2) * 16 + 1 * k.val = k.val; omega
  have hWr : ∀ k : Fin 16, iblk1 V c 2 t (ix2 (n0 := 16) (n1 := 16) k (j 1))
      = V c main_arg5 (ix2 (n0 := 16) (n1 := 16) k ((((cfg1.win 5).blk t).view.emb j) 1)) := fun k => by
    show V c main_arg5 (((cfg1.win 2).blk t).view.emb (ix2 (n0 := 16) (n1 := 16) k (j 1))) = _
    refine congrArg _ (funext fun a => Fin.ext ?_)
    match a with
    | ⟨0, _⟩ => show win1_2.index t (0 : Fin 2) * 16 + 1 * k.val = k.val; omega
    | ⟨1, _⟩ => show win1_2.index t (1 : Fin 2) * 16 + 1 * (j 1).val = win1_5.index t (1 : Fin 2) * 16 + 1 * (j 1).val; omega
  have hWo : ∀ k : Fin 16, iblk1 V c 3 t (ix2 (n0 := 16) (n1 := 16) k (j 1))
      = V c main_arg6 (ix2 (n0 := 16) (n1 := 16) k ((((cfg1.win 5).blk t).view.emb j) 1)) := fun k => by
    show V c main_arg6 (((cfg1.win 3).blk t).view.emb (ix2 (n0 := 16) (n1 := 16) k (j 1))) = _
    refine congrArg _ (funext fun a => Fin.ext ?_)
    match a with
    | ⟨0, _⟩ => show win1_3.index t (0 : Fin 2) * 16 + 1 * k.val = k.val; omega
    | ⟨1, _⟩ => show win1_3.index t (1 : Fin 2) * 16 + 1 * (j 1).val = win1_5.index t (1 : Fin 2) * 16 + 1 * (j 1).val; omega
  have hB : KMat.rowOf (iblk1 V c 4 t) (ix1 (n := 16) (j 1))
      = KMat.rowOf (V c main_v26) (ix1 (n := 16) ((((cfg1.win 5).blk t).view.emb j) 1)) := by
    show V c main_v26 (((cfg1.win 4).blk t).view.emb (ix2 (n0 := 1) (n1 := 16) 0 (j 1))) = _
    refine congrArg _ (funext fun a => Fin.ext ?_)
    match a with
    | ⟨0, _⟩ => show win1_4.index t (0 : Fin 2) * 1 + 1 * 0 = 0; omega
    | ⟨1, _⟩ => show win1_4.index t (1 : Fin 2) * 16 + 1 * (j 1).val = win1_5.index t (1 : Fin 2) * 16 + 1 * (j 1).val; omega
  rw [KMat.lin_congr _ _ _ _ j _ hA hWr, KMat.lin_congr _ _ _ _ j _ hX hWo, hB]

/-- An index of the output array is in point `t`'s block iff each coordinate is in the block's range on its axis. -/
theorem mem_blk (t : Fin cfg1.N) (i : S100000x16.Idx) :
    i ∈ ((cfg1.win 5).blk t).view.set ↔ ∀ a : Fin 2, win1_5.index t a * S10000x16.size a ≤ (i a).val
      ∧ (i a).val < win1_5.index t a * S10000x16.size a + S10000x16.size a := by
  show i ∈ ((View.whole main_v27).slice (win1_5.rect t)).set ↔ _
  rw [View.set_slice_whole, Rect.mem_set_unit]
  exact Iff.rfl

/-- Every index lies in the block of the point its row falls in. -/
theorem cover (i : S100000x16.Idx) : ∃ t : Fin cfg1.N, (cfg1.win 5).flush t = true ∧ i ∈ ((cfg1.win 5).blk t).view.set := by
  have hi0 : (i 0).val < 100000 := (i 0).isLt
  have hi1 : (i 1).val < 16 := (i 1).isLt
  have hN : cfg1.N = 10 := N_1
  refine ⟨⟨(i 0).val / 10000, by rw [hN]; omega⟩, flush1_5 _, ?_⟩
  rw [mem_blk]
  obtain ⟨-, -, -, -, -, -, -, -, -, -, g0, g1⟩ := idx_facts ⟨(i 0).val / 10000, by rw [hN]; omega⟩
  intro a
  match a with
  | ⟨0, _⟩ =>
    show win1_5.index _ (0 : Fin 2) * 10000 ≤ (i 0).val ∧ (i 0).val < win1_5.index _ (0 : Fin 2) * 10000 + 10000
    rw [g0]; show (i 0).val / 10000 * 10000 ≤ (i 0).val ∧ (i 0).val < (i 0).val / 10000 * 10000 + 10000; omega
  | ⟨1, _⟩ =>
    show win1_5.index _ (1 : Fin 2) * 16 ≤ (i 1).val ∧ (i 1).val < win1_5.index _ (1 : Fin 2) * 16 + 16
    rw [g1]; omega

/-- The region's output array ends holding the layer applied to its input arrays as the region finds them. -/
theorem final (c : Dev nD) :
    (dat1 V c).arrAt 5 cfg1.N = layer (V c main_v25) (V c main_v15) (V c main_arg5) (V c main_arg6) (V c main_v26) :=
  (dat1 V c).arrAt_eq_of_cover 5 _ (fun t _ => flushed_eq V c t) cover

end Cert.KReg1

end
-- ==== Proof.KReg2.lean ====
/-
  The third kernel region: t = Z · w, rows 10000·p … 10000·p + 9999 at grid point p.

  The region's output array is cut into ten blocks of 10000 rows. At point p the body loads rows 10000·p … of Z and the whole
  16 × 1 weight and stores their product, so what point p writes back is block p of the product of the WHOLE arrays: row r of a
  product depends on row r of the left factor only. Every row lies in the block of point r / 10000, so the ten blocks cover
  the array and it ends holding Z · w.
-/
import proofs.«114869_j2929167695879_2_alg».proof.Proof.Gen.KernelIdeal.Frame
import proofs.«114869_j2929167695879_2_alg».proof.Proof.KMat
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KReg2

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's arithmetic: the product of the two loaded blocks (a change of float format is the identity). -/
theorem pay_eq (x0 : Vec Ideal S10000x16 .f32) (x1 : Vec Ideal S16x1 .f32) :
    k2_pay1 x0 x1 = lin (n := 10000) (k := 16) (p := 1) x0 x1 := by
  unfold k2_pay1
  refine (KMat.matmul_plain_eq_lin 10000 16 1 _ _).trans ?_
  rw [shapeCast_self]
  rfl

/-- Where the index maps send a point: the row-blocked windows to block row `t`, column block 0; the weight to block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the whole arrays. -/
theorem flushed_eq (c : Dev nD) (t : Fin cfg2.N) :
    (dat2 V c).flushed 2 t = ((cfg2.win 2).blk t).view.read (Elt Ideal)
      (lin (n := 100000) (k := 16) (p := 1) (V c main_v27) (V c main_arg8)) := by
  show (cfg2.win 2).cut (grid2.coords t) ((dat2 V c).after 2 t) = _
  rw [after2_2]
  unfold out2_2
  rw [View.canon_unit_zero hz]
  simp only [View.ld_unit_zero (S := S10000x16) hz, View.ld_unit_zero (S := S16x1) hz]
  rw [pay_eq]
  obtain ⟨e0, e1, e2, e3, e4, e5⟩ := idx_facts t
  funext j
  show lin (n := 10000) (k := 16) (p := 1) (iblk2 V c 0 t) (iblk2 V c 1 t) j
    = lin (n := 100000) (k := 16) (p := 1) (V c main_v27) (V c main_arg8) (((cfg2.win 2).blk t).view.emb j)
  unfold lin
  refine Finset.sum_congr rfl fun k _ => ?_
  have hl : iblk2 V c 0 t (ix2 (n0 := 10000) (n1 := 16) (j 0) k)
      = V c main_v27 (ix2 (n0 := 100000) (n1 := 16) ((((cfg2.win 2).blk t).view.emb j) 0) k) := by
    show V c main_v27 (((cfg2.win 0).blk t).view.emb (ix2 (n0 := 10000) (n1 := 16) (j 0) k)) = _
    refine congrArg _ (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 16 + 1 * k.val = k.val; omega
  have hr : iblk2 V c 1 t (ix2 (n0 := 16) (n1 := 1) k (j 1))
      = V c main_arg8 (ix2 (n0 := 16) (n1 := 1) k ((((cfg2.win 2).blk t).view.emb j) 1)) := by
    show V c main_arg8 (((cfg2.win 1).blk t).view.emb (ix2 (n0 := 16) (n1 := 1) k (j 1))) = _
    refine congrArg _ (funext fun a => Fin.ext ?_)
    match a with
    | ⟨0, _⟩ => show win2_1.index t (0 : Fin 2) * 16 + 1 * k.val = k.val; omega
    | ⟨1, _⟩ => show win2_1.index t (1 : Fin 2) * 1 + 1 * (j 1).val = win2_2.index t (1 : Fin 2) * 1 + 1 * (j 1).val; omega
  rw [hl, hr]

/-- An index of the output array is in point `t`'s block iff each coordinate is in the block's range on its axis. -/
theorem mem_blk (t : Fin cfg2.N) (i : S100000x1.Idx) :
    i ∈ ((cfg2.win 2).blk t).view.set ↔ ∀ a : Fin 2, win2_2.index t a * S10000x1.size a ≤ (i a).val
      ∧ (i a).val < win2_2.index t a * S10000x1.size a + S10000x1.size a := by
  show i ∈ ((View.whole main_v28).slice (win2_2.rect t)).set ↔ _
  rw [View.set_slice_whole, Rect.mem_set_unit]
  exact Iff.rfl

/-- Every index lies in the block of the point its row falls in. -/
theorem cover (i : S100000x1.Idx) : ∃ t : Fin cfg2.N, (cfg2.win 2).flush t = true ∧ i ∈ ((cfg2.win 2).blk t).view.set := by
  have hi0 : (i 0).val < 100000 := (i 0).isLt
  have hi1 : (i 1).val < 1 := (i 1).isLt
  have hN : cfg2.N = 10 := N_2
  refine ⟨⟨(i 0).val / 10000, by rw [hN]; omega⟩, flush2_2 _, ?_⟩
  rw [mem_blk]
  obtain ⟨-, -, -, -, e4, e5⟩ := idx_facts ⟨(i 0).val / 10000, by rw [hN]; omega⟩
  intro a
  match a with
  | ⟨0, _⟩ =>
    show win2_2.index _ (0 : Fin 2) * 10000 ≤ (i 0).val ∧ (i 0).val < win2_2.index _ (0 : Fin 2) * 10000 + 10000
    rw [e4]; show (i 0).val / 10000 * 10000 ≤ (i 0).val ∧ (i 0).val < (i 0).val / 10000 * 10000 + 10000; omega
  | ⟨1, _⟩ =>
    show win2_2.index _ (1 : Fin 2) * 1 ≤ (i 1).val ∧ (i 1).val < win2_2.index _ (1 : Fin 2) * 1 + 1
    rw [e5]; omega

/-- The region's output array ends holding the product of its two input arrays as the region finds them. -/
theorem final (c : Dev nD) :
    (dat2 V c).arrAt 2 cfg2.N = lin (n := 100000) (k := 16) (p := 1) (V c main_v27) (V c main_arg8) :=
  (dat2 V c).arrAt_eq_of_cover 2 _ (fun t _ => flushed_eq V c t) cover

end Cert.KReg2

end
-- ==== Proof.KReg3.lean ====
/-
  The fourth kernel region: y = max(T + Z · w_root + b, 0), rows 10000·p … 10000·p + 9999 at grid point p.

  T (100000 × 1) is the neighbour sum the host formed of the third region's product, Z (100000 × 16) the second layer's output,
  the weight is 16 × 1 and the bias, reshaped by the host to 1 × 1, is added to every row. Row r of the body's result depends
  on row r of T and of Z only, so what point p writes back is block p of the formula on the WHOLE arrays, and the ten blocks
  cover the output array.
-/
import proofs.«114869_j2929167695879_2_alg».proof.Proof.Gen.KernelIdeal.Frame
import proofs.«114869_j2929167695879_2_alg».proof.Proof.KMat
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KReg3

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The last layer on whole arrays, given the neighbour sum `T` already formed: bias added last, then `max(·, 0)`. -/
def layer {n : Nat} (T : Mat n 1) (Z : Mat n 16) (w : Mat 16 1) (B : Mat 1 1) : Mat n 1 :=
  fun i => relu (T i + lin Z w i + KMat.rowOf B (ix1 (n := 1) (i 1)))

/-- The body's arithmetic on its loaded blocks is the layer on 10000 rows. -/
theorem pay_eq (x0 : Vec Ideal S10000x16 .f32) (x1 : Vec Ideal S16x1 .f32) (x2 : Vec Ideal S10000x1 .f32)
    (x3 : Vec Ideal S1x1 .f32) (j : S10000x1.Idx) :
    k3_pay1 x0 x1 x2 x3 j = layer (n := 10000) x2 x0 x1 x3 j := by
  have e : k3_pay1 x0 x1 x2 x3
      = maximumf (addf (addf (shapeCast S10000x1 x2 shapeCasts_S10000x1_S10000x1)
          (FloatOps.matmul (DotDims.plain 10000 16 1) none (shapeCast S10000x16 x0 shapeCasts_S10000x16_S10000x16) x1
            (constant (F := Ideal) S10000x1 .f32 0x00000000#32)))
          (broadcastTo S10000x1 (shapeCast S1x1 x3 shapeCasts_S1x1_S1x1) broadcasts_S1x1_S10000x1))
        (broadcast S10000x1 (Ideal.ofBits .f32 0x00000000#32)) := rfl
  rw [e, shapeCast_self, shapeCast_self, shapeCast_self, KMat.matmul_plain_eq_lin]
  show max (x2 j + lin (n := 10000) (k := 16) (p := 1) x0 x1 j
      + broadcastTo S10000x1 x3 broadcasts_S1x1_S10000x1 j) (Ideal.ofBits .f32 0x00000000#32) = _
  rw [broadcastTo_apply x3 broadcasts_S1x1_S10000x1 j (ix2 (n0 := 1) (n1 := 1) 0 (j 1))
    (fun a => by
      match a with
      | ⟨0, _⟩ => rfl
      | ⟨1, _⟩ => show (j 1).val = 0; have h1 : (j 1).val < 1 := (j 1).isLt; omega)]
  rfl

/-- Where the index maps send a point. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the layer on the whole arrays. -/
theorem flushed_eq (c : Dev nD) (t : Fin cfg3.N) :
    (dat3 V c).flushed 4 t = ((cfg3.win 4).blk t).view.read (Elt Ideal)
      (layer (n := 100000) (V c main_v38) (V c main_v27) (V c main_arg9) (V c main_v39)) := by
  show (cfg3.win 4).cut (grid3.coords t) ((dat3 V c).after 4 t) = _
  rw [after3_4]
  unfold out3_4
  rw [View.canon_unit_zero hz]
  simp only [View.ld_unit_zero (S := S10000x16) hz, View.ld_unit_zero (S := S16x1) hz, View.ld_unit_zero (S := S10000x1) hz,
    View.ld_unit_zero (S := S1x1) hz]
  obtain ⟨a0, a1, b0, b1, c0, c1, d0, d1, g0, g1⟩ := idx_facts t
  funext j
  show k3_pay1 (iblk3 V c 1 t) (iblk3 V c 2 t) (iblk3 V c 0 t) (iblk3 V c 3 t) j
    = layer (n := 100000) (V c main_v38) (V c main_v27) (V c main_arg9) (V c main_v39) (((cfg3.win 4).blk t).view.emb j)
  rw [pay_eq]
  unfold layer
  have hT : iblk3 V c 0 t j = V c main_v38 (((cfg3.win 4).blk t).view.emb j) := by
    show V c main_v38 (((cfg3.win 0).blk t).view.emb j) = _
    refine congrArg _ (funext fun a => Fin.ext ?_)
    match a with
    | ⟨0, _⟩ => show win3_0.index t (0 : Fin 2) * 10000 + 1 * (j 0).val = win3_4.index t (0 : Fin 2) * 10000 + 1 * (j 0).val; omega
    | ⟨1, _⟩ => show win3_0.index t (1 : Fin 2) * 1 + 1 * (j 1).val = win3_4.index t (1 : Fin 2) * 1 + 1 * (j 1).val; omega
  have hZ : ∀ k : Fin 16, iblk3 V c 1 t (ix2 (n0 := 10000) (n1 := 16) (j 0) k)
      = V c main_v27 (ix2 (n0 := 100000) (n1 := 16) ((((cfg3.win 4).blk t).view.emb j) 0) k) := fun k => by
    show V c main_v27 (((cfg3.win 1).blk t).view.emb (ix2 (n0 := 10000) (n1 := 16) (j 0) k)) = _
    refine congrArg _ (funext fun a => Fin.ext ?_)
    match a with
    | ⟨0, _⟩ => show win3_1.index t (0 : Fin 2) * 10000 + 1 * (j 0).val = win3_4.index t (0 : Fin 2) * 10000 + 1 * (j 0).val; omega
    | ⟨1, _⟩ => show win3_1.index t (1 : Fin 2) * 16 + 1 * k.val = k.val; omega
  have hW : ∀ k : Fin 16, iblk3 V c 2 t (ix2 (n0 := 16) (n1 := 1) k (j 1))
      = V c main_arg9 (ix2 (n0 := 16) (n1 := 1) k ((((cfg3.win 4).blk t).view.emb j) 1)) := fun k => by
    show V c main_arg9 (((cfg3.win 2).blk t).view.emb (ix2 (n0 := 16) (n1 := 1) k (j 1))) = _
    refine congrArg _ (funext fun a => Fin.ext ?_)
    match a with
    | ⟨0, _⟩ => show win3_2.index t (0 : Fin 2) * 16 + 1 * k.val = k.val; omega
    | ⟨1, _⟩ => show win3_2.index t (1 : Fin 2) * 1 + 1 * (j 1).val = win3_4.index t (1 : Fin 2) * 1 + 1 * (j 1).val; omega
  have hB : KMat.rowOf (iblk3 V c 3 t) (ix1 (n := 1) (j 1))
      = KMat.rowOf (V c main_v39) (ix1 (n := 1) ((((cfg3.win 4).blk t).view.emb j) 1)) := by
    show V c main_v39 (((cfg3.win 3).blk t).view.emb (ix2 (n0 := 1) (n1 := 1) 0 (j 1))) = _
    refine congrArg _ (funext fun a => Fin.ext ?_)
    match a with
    | ⟨0, _⟩ => show win3_3.index t (0 : Fin 2) * 1 + 1 * 0 = 0; omega
    | ⟨1, _⟩ => show win3_3.index t (1 : Fin 2) * 1 + 1 * (j 1).val = win3_4.index t (1 : Fin 2) * 1 + 1 * (j 1).val; omega
  rw [hT, KMat.lin_congr _ _ _ _ j _ hZ hW, hB]

/-- An index of the output array is in point `t`'s block iff each coordinate is in the block's range on its axis. -/
theorem mem_blk (t : Fin cfg3.N) (i : S100000x1.Idx) :
    i ∈ ((cfg3.win 4).blk t).view.set ↔ ∀ a : Fin 2, win3_4.index t a * S10000x1.size a ≤ (i a).val
      ∧ (i a).val < win3_4.index t a * S10000x1.size a + S10000x1.size a := by
  show i ∈ ((View.whole main_v40).slice (win3_4.rect t)).set ↔ _
  rw [View.set_slice_whole, Rect.mem_set_unit]
  exact Iff.rfl

/-- Every index lies in the block of the point its row falls in. -/
theorem cover (i : S100000x1.Idx) : ∃ t : Fin cfg3.N, (cfg3.win 4).flush t = true ∧ i ∈ ((cfg3.win 4).blk t).view.set := by
  have hi0 : (i 0).val < 100000 := (i 0).isLt
  have hi1 : (i 1).val < 1 := (i 1).isLt
  have hN : cfg3.N = 10 := N_3
  refine ⟨⟨(i 0).val / 10000, by rw [hN]; omega⟩, flush3_4 _, ?_⟩
  rw [mem_blk]
  obtain ⟨-, -, -, -, -, -, -, -, g0, g1⟩ := idx_facts ⟨(i 0).val / 10000, by rw [hN]; omega⟩
  intro a
  match a with
  | ⟨0, _⟩ =>
    show win3_4.index _ (0 : Fin 2) * 10000 ≤ (i 0).val ∧ (i 0).val < win3_4.index _ (0 : Fin 2) * 10000 + 10000
    rw [g0]; show (i 0).val / 10000 * 10000 ≤ (i 0).val ∧ (i 0).val < (i 0).val / 10000 * 10000 + 10000; omega
  | ⟨1, _⟩ =>
    show win3_4.index _ (1 : Fin 2) * 1 ≤ (i 1).val ∧ (i 1).val < win3_4.index _ (1 : Fin 2) * 1 + 1
    rw [g1]; omega

/-- The region's output array ends holding the layer applied to its input arrays as the region finds them. -/
theorem final (c : Dev nD) :
    (dat3 V c).arrAt 4 cfg3.N = layer (n := 100000) (V c main_v38) (V c main_v27) (V c main_arg9) (V c main_v39) :=
  (dat3 V c).arrAt_eq_of_cover 4 _ (fun t _ => flushed_eq V c t) cover

end Cert.KReg3

end
-- ==== Proof.KFold.lean ====
/-
  The idealized kernel's intermediate arrays, read through the run.

  The buffer contents at each boundary of @main's seven segments are a fold from the launch memory (a host stretch applies
  its operations; a region replaces its output array by what its write-backs leave and keeps every other buffer). Reading
  the fold at the buffers each later segment uses gives every intermediate array as a function of the eleven arguments:
  the neighbour sum of the features, the first layer, its neighbour sum, the second layer, its product with the last
  neighbour weight, that product's neighbour sum, and the result.
-/
import proofs.«114869_j2929167695879_2_alg».proof.Proof.Gen.KernelIdeal.Frame
import proofs.«114869_j2929167695879_2_alg».proof.Proof.KReg0
import proofs.«114869_j2929167695879_2_alg».proof.Proof.KReg1
import proofs.«114869_j2929167695879_2_alg».proof.Proof.KReg2
import proofs.«114869_j2929167695879_2_alg».proof.Proof.KReg3
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KFold

open Cert.KernelIdeal Cert.KernelIdeal.Gen Cert.Spec

/-- Row 0 (sources) and row 1 (destinations) of the 2 × E edge array, each as a vector of E integers. -/
def row0 (ei : IVec S2x3200000 32) : IVec S3200000 32 :=
  shapeCast S3200000 (extractStridedSlice S1x3200000 ![0, 0] ei slices_S2x3200000_S1x3200000_0_0) shapeCasts_S1x3200000_S3200000
def row1 (ei : IVec S2x3200000 32) : IVec S3200000 32 :=
  shapeCast S3200000 (extractStridedSlice S1x3200000 ![1, 0] ei slices_S2x3200000_S1x3200000_1_0) shapeCasts_S1x3200000_S3200000

/-- The gathers' start indices: a negative source entry has the node count added (indexing from the end), as an E × 1 array. -/
def srcOf (v : IVec S3200000 32) : IVec ⟨2, ![3200000, 1]⟩ 32 :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)
/-- The scatters' indices: the destination entries as an E × 1 array. -/
def dstOf (v : IVec S3200000 32) : IVec ⟨2, ![3200000, 1]⟩ 32 :=
  broadcastInDim S3200000x1 ![0] bcast_S3200000_S3200000x1_0 v

/-- The two neighbour sums of this program's edge array. -/
def agg1 (ei : IVec S2x3200000 32) : Mat 100000 1 → Mat 100000 1 :=
  nbrSum 100000 3200000 1 gather_S100000x1_S3200000x1_S3200000x1_1_0_n_n_0_1_11_wf scatter_S100000x1_S3200000x1_S3200000x1_1_0_0_1_wf
    (srcOf (row0 ei)) (dstOf (row1 ei))
def agg16 (ei : IVec S2x3200000 32) : Mat 100000 16 → Mat 100000 16 :=
  nbrSum 100000 3200000 16 gather_S100000x16_S3200000x1_S3200000x16_1_0_n_n_0_1_116_wf scatter_S100000x16_S3200000x1_S3200000x16_1_0_0_1_wf
    (srcOf (row0 ei)) (dstOf (row1 ei))

variable (m : (ℓ : Loc nD τ sig) → Buf (Elt Ideal) ℓ) (ρ : Dev nD → PrngReg) (c : Dev nD)

/-! ## The value of every intermediate array, in program order -/

/-- The three biases as the host reshapes them to one row. -/
def B4 : Mat 1 16 := shapeCast S1x16 (m ((c : Thread nD τ).loc main_arg4)) shapeCasts_S16_S1x16
def B7 : Mat 1 16 := shapeCast S1x16 (m ((c : Thread nD τ).loc main_arg7)) shapeCasts_S16_S1x16
def B10 : Mat 1 1 := shapeCast S1x1 (m ((c : Thread nD τ).loc main_arg10)) shapeCasts_S1_S1x1
/-- The neighbour sum of the node features. -/
def A1 : Mat 100000 1 := agg1 (m ((c : Thread nD τ).loc main_arg1)) (m ((c : Thread nD τ).loc main_arg0))
/-- The first layer's output. -/
def Z1 : Mat 100000 16 := KReg0.layer (A1 m c) (m ((c : Thread nD τ).loc main_arg0)) (m ((c : Thread nD τ).loc main_arg2)) (m ((c : Thread nD τ).loc main_arg3)) (B4 m c)
/-- Its neighbour sum. -/
def A2 : Mat 100000 16 := agg16 (m ((c : Thread nD τ).loc main_arg1)) (Z1 m c)
/-- The second layer's output. -/
def Z2 : Mat 100000 16 := KReg1.layer (A2 m c) (Z1 m c) (m ((c : Thread nD τ).loc main_arg5)) (m ((c : Thread nD τ).loc main_arg6)) (B7 m c)
/-- Its product with the last layer's neighbour weight. -/
def T : Mat 100000 1 := lin (Z2 m c) (m ((c : Thread nD τ).loc main_arg8))
/-- That product's neighbour sum. -/
def AT : Mat 100000 1 := agg1 (m ((c : Thread nD τ).loc main_arg1)) (T m c)
/-- The result. -/
def Y : Mat 100000 1 := KReg3.layer (n := 100000) (AT m c) (Z2 m c) (m ((c : Thread nD τ).loc main_arg9)) (B10 m c)

/-! ## After the first stretch of host operations -/

theorem w1_v13 : W1 m ρ c (Proc.devRef .tc main_v13) = A1 m c := by
  show StableHlo.after hostOps0 (W0 m ρ c) (Proc.devRef .tc main_v13) = _
  after_results
  rfl
theorem w1_v14 : W1 m ρ c (Proc.devRef .tc main_v14) = B4 m c := by
  show StableHlo.after hostOps0 (W0 m ρ c) (Proc.devRef .tc main_v14) = _
  after_results
  rfl
theorem w1_v1 : W1 m ρ c (Proc.devRef .tc main_v1) = row0 (m ((c : Thread nD τ).loc main_arg1)) := by
  show StableHlo.after hostOps0 (W0 m ρ c) (Proc.devRef .tc main_v1) = _
  after_results
  rfl
theorem w1_v3 : W1 m ρ c (Proc.devRef .tc main_v3) = row1 (m ((c : Thread nD τ).loc main_arg1)) := by
  show StableHlo.after hostOps0 (W0 m ρ c) (Proc.devRef .tc main_v3) = _
  after_results
  rfl
theorem w1_arg0 : W1 m ρ c (Proc.devRef .tc main_arg0) = (m ((c : Thread nD τ).loc main_arg0)) := by
  show StableHlo.after hostOps0 (W0 m ρ c) (Proc.devRef .tc main_arg0) = _
  after_results
theorem w1_arg2 : W1 m ρ c (Proc.devRef .tc main_arg2) = (m ((c : Thread nD τ).loc main_arg2)) := by
  show StableHlo.after hostOps0 (W0 m ρ c) (Proc.devRef .tc main_arg2) = _
  after_results
theorem w1_arg3 : W1 m ρ c (Proc.devRef .tc main_arg3) = (m ((c : Thread nD τ).loc main_arg3)) := by
  show StableHlo.after hostOps0 (W0 m ρ c) (Proc.devRef .tc main_arg3) = _
  after_results
theorem w1_arg5 : W1 m ρ c (Proc.devRef .tc main_arg5) = (m ((c : Thread nD τ).loc main_arg5)) := by
  show StableHlo.after hostOps0 (W0 m ρ c) (Proc.devRef .tc main_arg5) = _
  after_results
theorem w1_arg6 : W1 m ρ c (Proc.devRef .tc main_arg6) = (m ((c : Thread nD τ).loc main_arg6)) := by
  show StableHlo.after hostOps0 (W0 m ρ c) (Proc.devRef .tc main_arg6) = _
  after_results
theorem w1_arg7 : W1 m ρ c (Proc.devRef .tc main_arg7) = (m ((c : Thread nD τ).loc main_arg7)) := by
  show StableHlo.after hostOps0 (W0 m ρ c) (Proc.devRef .tc main_arg7) = _
  after_results
theorem w1_arg8 : W1 m ρ c (Proc.devRef .tc main_arg8) = (m ((c : Thread nD τ).loc main_arg8)) := by
  show StableHlo.after hostOps0 (W0 m ρ c) (Proc.devRef .tc main_arg8) = _
  after_results
theorem w1_arg9 : W1 m ρ c (Proc.devRef .tc main_arg9) = (m ((c : Thread nD τ).loc main_arg9)) := by
  show StableHlo.after hostOps0 (W0 m ρ c) (Proc.devRef .tc main_arg9) = _
  after_results
theorem w1_arg10 : W1 m ρ c (Proc.devRef .tc main_arg10) = (m ((c : Thread nD τ).loc main_arg10)) := by
  show StableHlo.after hostOps0 (W0 m ρ c) (Proc.devRef .tc main_arg10) = _
  after_results

/-! ## After the first region -/

theorem w2_v15 : W2 m ρ c (Proc.devRef .tc main_v15) = Z1 m c :=
  (W2_arr m ρ c 5).trans ((KReg0.final (V1 m ρ) c).trans (by
    show KReg0.layer (W1 m ρ c (Proc.devRef .tc main_v13)) (W1 m ρ c (Proc.devRef .tc main_arg0)) (W1 m ρ c (Proc.devRef .tc main_arg2)) (W1 m ρ c (Proc.devRef .tc main_arg3)) (W1 m ρ c (Proc.devRef .tc main_v14)) = _
    rw [w1_v13, w1_arg0, w1_arg2, w1_arg3, w1_v14]
    rfl))
theorem w2_v1 : W2 m ρ c (Proc.devRef .tc main_v1) = row0 (m ((c : Thread nD τ).loc main_arg1)) := (W2_of_ne m ρ c main_v1 (by decide)).trans (w1_v1 m ρ c)
theorem w2_v3 : W2 m ρ c (Proc.devRef .tc main_v3) = row1 (m ((c : Thread nD τ).loc main_arg1)) := (W2_of_ne m ρ c main_v3 (by decide)).trans (w1_v3 m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)
theorem w2_arg8 : W2 m ρ c (Proc.devRef .tc main_arg8) = (m ((c : Thread nD τ).loc main_arg8)) := (W2_of_ne m ρ c main_arg8 (by decide)).trans (w1_arg8 m ρ c)
theorem w2_arg9 : W2 m ρ c (Proc.devRef .tc main_arg9) = (m ((c : Thread nD τ).loc main_arg9)) := (W2_of_ne m ρ c main_arg9 (by decide)).trans (w1_arg9 m ρ c)
theorem w2_arg10 : W2 m ρ c (Proc.devRef .tc main_arg10) = (m ((c : Thread nD τ).loc main_arg10)) := (W2_of_ne m ρ c main_arg10 (by decide)).trans (w1_arg10 m ρ c)

/-! ## After the second stretch of host operations -/

theorem w3_v25 : W3 m ρ c (Proc.devRef .tc main_v25) = A2 m c := by
  show StableHlo.after hostOps1 (W2 m ρ c) (Proc.devRef .tc main_v25) = _
  after_results
  rw [w2_v15, w2_v1, w2_v3]
  rfl
theorem w3_v26 : W3 m ρ c (Proc.devRef .tc main_v26) = B7 m c := by
  show StableHlo.after hostOps1 (W2 m ρ c) (Proc.devRef .tc main_v26) = _
  after_results
  rw [w2_arg7]
  rfl
theorem w3_v15 : W3 m ρ c (Proc.devRef .tc main_v15) = Z1 m c := by
  show StableHlo.after hostOps1 (W2 m ρ c) (Proc.devRef .tc main_v15) = _
  after_results
  exact w2_v15 m ρ c
theorem w3_arg5 : W3 m ρ c (Proc.devRef .tc main_arg5) = (m ((c : Thread nD τ).loc main_arg5)) := by
  show StableHlo.after hostOps1 (W2 m ρ c) (Proc.devRef .tc main_arg5) = _
  after_results
  exact w2_arg5 m ρ c
theorem w3_arg6 : W3 m ρ c (Proc.devRef .tc main_arg6) = (m ((c : Thread nD τ).loc main_arg6)) := by
  show StableHlo.after hostOps1 (W2 m ρ c) (Proc.devRef .tc main_arg6) = _
  after_results
  exact w2_arg6 m ρ c
theorem w3_v1 : W3 m ρ c (Proc.devRef .tc main_v1) = row0 (m ((c : Thread nD τ).loc main_arg1)) := by
  show StableHlo.after hostOps1 (W2 m ρ c) (Proc.devRef .tc main_v1) = _
  after_results
  exact w2_v1 m ρ c
theorem w3_v3 : W3 m ρ c (Proc.devRef .tc main_v3) = row1 (m ((c : Thread nD τ).loc main_arg1)) := by
  show StableHlo.after hostOps1 (W2 m ρ c) (Proc.devRef .tc main_v3) = _
  after_results
  exact w2_v3 m ρ c
theorem w3_arg8 : W3 m ρ c (Proc.devRef .tc main_arg8) = (m ((c : Thread nD τ).loc main_arg8)) := by
  show StableHlo.after hostOps1 (W2 m ρ c) (Proc.devRef .tc main_arg8) = _
  after_results
  exact w2_arg8 m ρ c
theorem w3_arg9 : W3 m ρ c (Proc.devRef .tc main_arg9) = (m ((c : Thread nD τ).loc main_arg9)) := by
  show StableHlo.after hostOps1 (W2 m ρ c) (Proc.devRef .tc main_arg9) = _
  after_results
  exact w2_arg9 m ρ c
theorem w3_arg10 : W3 m ρ c (Proc.devRef .tc main_arg10) = (m ((c : Thread nD τ).loc main_arg10)) := by
  show StableHlo.after hostOps1 (W2 m ρ c) (Proc.devRef .tc main_arg10) = _
  after_results
  exact w2_arg10 m ρ c

/-! ## After the second region -/

theorem w4_v27 : W4 m ρ c (Proc.devRef .tc main_v27) = Z2 m c :=
  (W4_arr m ρ c 5).trans ((KReg1.final (V3 m ρ) c).trans (by
    show KReg1.layer (W3 m ρ c (Proc.devRef .tc main_v25)) (W3 m ρ c (Proc.devRef .tc main_v15)) (W3 m ρ c (Proc.devRef .tc main_arg5)) (W3 m ρ c (Proc.devRef .tc main_arg6)) (W3 m ρ c (Proc.devRef .tc main_v26)) = _
    rw [w3_v25, w3_v15, w3_arg5, w3_arg6, w3_v26]
    rfl))
theorem w4_arg8 : W4 m ρ c (Proc.devRef .tc main_arg8) = (m ((c : Thread nD τ).loc main_arg8)) := (W4_of_ne m ρ c main_arg8 (by decide)).trans (w3_arg8 m ρ c)
theorem w4_v1 : W4 m ρ c (Proc.devRef .tc main_v1) = row0 (m ((c : Thread nD τ).loc main_arg1)) := (W4_of_ne m ρ c main_v1 (by decide)).trans (w3_v1 m ρ c)
theorem w4_v3 : W4 m ρ c (Proc.devRef .tc main_v3) = row1 (m ((c : Thread nD τ).loc main_arg1)) := (W4_of_ne m ρ c main_v3 (by decide)).trans (w3_v3 m ρ c)
theorem w4_arg9 : W4 m ρ c (Proc.devRef .tc main_arg9) = (m ((c : Thread nD τ).loc main_arg9)) := (W4_of_ne m ρ c main_arg9 (by decide)).trans (w3_arg9 m ρ c)
theorem w4_arg10 : W4 m ρ c (Proc.devRef .tc main_arg10) = (m ((c : Thread nD τ).loc main_arg10)) := (W4_of_ne m ρ c main_arg10 (by decide)).trans (w3_arg10 m ρ c)

/-! ## After the third region -/

theorem w5_v28 : W5 m ρ c (Proc.devRef .tc main_v28) = T m c :=
  (W5_arr m ρ c 2).trans ((KReg2.final (V4 m ρ) c).trans (by
    show lin (n := 100000) (k := 16) (p := 1) (W4 m ρ c (Proc.devRef .tc main_v27)) (W4 m ρ c (Proc.devRef .tc main_arg8)) = _
    rw [w4_v27, w4_arg8]
    rfl))
theorem w5_v27 : W5 m ρ c (Proc.devRef .tc main_v27) = Z2 m c :=
  (W5_arr m ρ c 0).trans ((((dat2 (V4 m ρ) c).arrAt_in 0 rfl _).trans (A_eq2 (V4 m ρ) c 0)).trans (w4_v27 m ρ c))
theorem w5_v1 : W5 m ρ c (Proc.devRef .tc main_v1) = row0 (m ((c : Thread nD τ).loc main_arg1)) := (W5_of_ne m ρ c main_v1 (by decide)).trans (w4_v1 m ρ c)
theorem w5_v3 : W5 m ρ c (Proc.devRef .tc main_v3) = row1 (m ((c : Thread nD τ).loc main_arg1)) := (W5_of_ne m ρ c main_v3 (by decide)).trans (w4_v3 m ρ c)
theorem w5_arg9 : W5 m ρ c (Proc.devRef .tc main_arg9) = (m ((c : Thread nD τ).loc main_arg9)) := (W5_of_ne m ρ c main_arg9 (by decide)).trans (w4_arg9 m ρ c)
theorem w5_arg10 : W5 m ρ c (Proc.devRef .tc main_arg10) = (m ((c : Thread nD τ).loc main_arg10)) := (W5_of_ne m ρ c main_arg10 (by decide)).trans (w4_arg10 m ρ c)

/-! ## After the third stretch of host operations -/

theorem w6_v38 : W6 m ρ c (Proc.devRef .tc main_v38) = AT m c := by
  show StableHlo.after hostOps3 (W5 m ρ c) (Proc.devRef .tc main_v38) = _
  after_results
  rw [w5_v28, w5_v1, w5_v3]
  rfl
theorem w6_v39 : W6 m ρ c (Proc.devRef .tc main_v39) = B10 m c := by
  show StableHlo.after hostOps3 (W5 m ρ c) (Proc.devRef .tc main_v39) = _
  after_results
  rw [w5_arg10]
  rfl
theorem w6_v27 : W6 m ρ c (Proc.devRef .tc main_v27) = Z2 m c := by
  show StableHlo.after hostOps3 (W5 m ρ c) (Proc.devRef .tc main_v27) = _
  after_results
  exact w5_v27 m ρ c
theorem w6_arg9 : W6 m ρ c (Proc.devRef .tc main_arg9) = (m ((c : Thread nD τ).loc main_arg9)) := by
  show StableHlo.after hostOps3 (W5 m ρ c) (Proc.devRef .tc main_arg9) = _
  after_results
  exact w5_arg9 m ρ c

/-! ## After the fourth region: the result -/

theorem w7_v40 : W7 m ρ c (Proc.devRef .tc main_v40) = Y m c :=
  (W7_arr m ρ c 4).trans ((KReg3.final (V6 m ρ) c).trans (by
    show KReg3.layer (n := 100000) (W6 m ρ c (Proc.devRef .tc main_v38)) (W6 m ρ c (Proc.devRef .tc main_v27)) (W6 m ρ c (Proc.devRef .tc main_arg9)) (W6 m ρ c (Proc.devRef .tc main_v39)) = _
    rw [w6_v38, w6_v27, w6_arg9, w6_v39]
    rfl))

end Cert.KFold

end
-- ==== Proof.KRun.lean ====
/-
  The idealized kernel's run with its result named.

  @main is seven segments: a stretch of host operations, the first kernel region, a second stretch, the second and third regions,
  a third stretch and the fourth region. The buffer contents at each boundary are a fold from the launch memory: a stretch
  applies its operations, a region replaces its output array by what its write-backs leave. Every weakly fair execution
  terminates without a fault in a state whose unscoped buffers hold the fold's last value; read at the result buffer and at the
  eleven arguments (which nothing writes) this is the statement below.
-/
import proofs.«114869_j2929167695879_2_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the fold's value there and
    the argument arrays end as launched. -/
theorem run_named : θ_run defs (onTc (τ := τ) (main (F := F))) ⟨m, fun _ => 0, ρ⟩ (fun r => ∀ c : Dev nD,
      r.2.mem ((c.tc : Thread nD τ).loc main_v40) = W7 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v40 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KRun

end
-- ==== Proof.KValue.lean ====
/-
  The idealized kernel's result is the three-layer stack with the last neighbour weight applied before the neighbour sum.

  The run leaves in the result buffer the value `Y` built up region by region (the previous module). Each bias reaches its
  region reshaped by the host from a vector to a one-row array, and a region adds that row to every row of its output: the
  one row of the reshaped vector, read back as a vector, is the vector. With that, `Y` unfolds to the specification.
-/
import proofs.«114869_j2929167695879_2_alg».proof.Proof.KFold
import proofs.«114869_j2929167695879_2_alg».proof.Proof.KRun

set_option maxRecDepth 16384

noncomputable section

open Idealize.ShloMosaic Idealize.ShloMosaic.TcCoe Idealize.SL.Sem Idealize.ShloMosaic.ValueIdx

namespace Cert.KValue

open Cert.KernelIdeal Cert.KernelIdeal.Gen Cert.Spec Cert.KFold

/-- A vector reshaped to one row and that row read back is the vector. -/
theorem rowOf_reshape {p : Nat} (b : Vc p) (h : (⟨1, ![p]⟩ : Shape).ShapeCasts ⟨2, ![1, p]⟩) :
    KMat.rowOf (shapeCast ⟨2, ![1, p]⟩ b h) = b := by
  funext j
  unfold KMat.rowOf
  refine (shapeCast_addUnit_apply (n := 1) ![p] b h _).trans (congrArg b (funext fun a => ?_))
  match a with
  | ⟨0, _⟩ => rfl

variable (m : (ℓ : Loc nD τ sig) → Buf (Elt Ideal) ℓ) (ρ : Dev nD → PrngReg) (c : Dev nD)

/-- The result value is the specification at this program's neighbour sums and arguments. -/
theorem Y_eq : Y m c = pushed (agg1 (m ((c : Thread nD τ).loc main_arg1))) (agg16 (m ((c : Thread nD τ).loc main_arg1)))
    (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Y AT Cert.KFold.T Z2 A2 Z1 A1 pushed outPushed hidden2 hidden1 KReg3.layer KReg1.layer KReg0.layer B4 B7 B10
  rw [rowOf_reshape, rowOf_reshape, rowOf_reshape]

/-- Every weakly fair execution of @main terminates without a fault, the result buffer at the specification's value and the
    argument arrays as launched. -/
theorem run : θ_run defs (onTc (τ := τ) (main (F := Ideal))) ⟨m, fun _ => 0, ρ⟩ (fun r => ∀ c : Dev nD,
      r.2.mem ((c.tc : Thread nD τ).loc main_v40) = Y m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (w7_v40 m ρ c), (h c).2⟩) (Cert.KRun.run_named (F := Ideal) m ρ)

end Cert.KValue

end
-- ==== Proof.RefValue.lean ====
/-
  The reference program computes the plain three-layer stack.

  The reference's result is a composition of 67 array operations on its eleven arguments. Read one operation at a time it
  is: two index columns cut from the edge array (the sources, read signed and wrapped once into range when negative, and the
  destinations), and three graph-convolution layers, each a neighbour sum (gather rows at the sources, add them into a zero
  array at the destinations), two matrix products, a bias broadcast along the rows, and two additions with the bias in
  the middle; `max(·, 0)` follows the first and the last layer. Index by index this is the specification's `plain`.
-/
import proofs.«114869_j2929167695879_2_alg».proof.Proof.Gen.ReferenceIdeal.Read
import proofs.«114869_j2929167695879_2_alg».proof.Proof.Spec

noncomputable section

namespace Cert.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo
open scoped BigOperators

/-! ## The two index columns -/

/-- The source column: row 0 of the edge array as an `E × 1` column, each entry read signed and, when negative, moved up by
    the number of nodes. -/
def srcR (ei : IVec S2x3200000 32) : IVec ⟨2, ![3200000, 1]⟩ 32 :=
  broadcastInDim S3200000x1 ![0] bcast_S3200000_S3200000x1_0
    (select
      (cmpi .slt (shapeCast _ (extractStridedSlice S1x3200000 ![0, 0] ei slices_S2x3200000_S1x3200000_0_0) shapeCasts_S1x3200000_S3200000)
        (broadcastInDim S3200000 ![] bcast_S_S3200000 (constantI S_ 32 0#32)))
      (addi (shapeCast _ (extractStridedSlice S1x3200000 ![0, 0] ei slices_S2x3200000_S1x3200000_0_0) shapeCasts_S1x3200000_S3200000)
        (broadcastInDim S3200000 ![] bcast_S_S3200000 (constantI S_ 32 100000#32)))
      (shapeCast _ (extractStridedSlice S1x3200000 ![0, 0] ei slices_S2x3200000_S1x3200000_0_0) shapeCasts_S1x3200000_S3200000))

/-- The destination column: row 1 of the edge array as an `E × 1` column. -/
def dstR (ei : IVec S2x3200000 32) : IVec ⟨2, ![3200000, 1]⟩ 32 :=
  broadcastInDim S3200000x1 ![0] bcast_S3200000_S3200000x1_0
    (shapeCast _ (extractStridedSlice S1x3200000 ![1, 0] ei slices_S2x3200000_S1x3200000_1_0) shapeCasts_S1x3200000_S3200000)

/-- The reference's 1-wide neighbour sum over the edge array `ei`. -/
abbrev agg1 (ei : IVec S2x3200000 32) : Spec.Mat 100000 1 → Spec.Mat 100000 1 :=
  Spec.nbrSum 100000 3200000 1 gather_S100000x1_S3200000x1_S3200000x1_1_0_n_n_0_1_11_wf
    scatter_S100000x1_S3200000x1_S3200000x1_1_0_0_1_wf (srcR ei) (dstR ei)

/-- The reference's 16-wide neighbour sum over the edge array `ei`. -/
abbrev agg16 (ei : IVec S2x3200000 32) : Spec.Mat 100000 16 → Spec.Mat 100000 16 :=
  Spec.nbrSum 100000 3200000 16 gather_S100000x16_S3200000x1_S3200000x16_1_0_n_n_0_1_116_wf
    scatter_S100000x16_S3200000x1_S3200000x16_1_0_0_1_wf (srcR ei) (dstR ei)

/-! ## The three neighbour-sum stages

  Each scatter adds the rows gathered at the sources into a zero array at the destinations: the neighbour sum of the
  array the gather reads. -/

/-- The first scatter's result is the 1-wide neighbour sum of the node features. -/
theorem stage13 (x0 : Spec.Mat 100000 1) (x1 : IVec S2x3200000 32) :
    val_main_v13 (F := Ideal) x0 x1 = agg1 x1 x0 := rfl

/-- The second scatter's result is the 16-wide neighbour sum of the first layer's output. -/
theorem stage30 (x0 : Spec.Mat 100000 1) (x1 : IVec S2x3200000 32) (x2 x3 : Spec.Mat 1 16) (x4 : Spec.Vc 16) :
    val_main_v30 (F := Ideal) x0 x1 x2 x3 x4 = agg16 x1 (val_main_v20 (F := Ideal) x0 x1 x2 x3 x4) := rfl

/-- The third scatter's result is the 16-wide neighbour sum of the second layer's output. -/
theorem stage46 (x0 : Spec.Mat 100000 1) (x1 : IVec S2x3200000 32) (x2 x3 : Spec.Mat 1 16) (x4 : Spec.Vc 16)
    (x5 x6 : Spec.Mat 16 16) (x7 : Spec.Vc 16) :
    val_main_v46 (F := Ideal) x0 x1 x2 x3 x4 x5 x6 x7 = agg16 x1 (val_main_v36 (F := Ideal) x0 x1 x2 x3 x4 x5 x6 x7) := rfl

/-! ## The index maps of the matrix products and the bias broadcasts

  A product's entry `(r, q)` reads the left operand at `(r, k)` and the right at `(k, q)`; a bias broadcast reads the
  bias at the column `q`. -/

theorem lidx14 (i : S100000x16.Idx) (k : Fin 1) : lidx_main_v14 i k = ix2 (n0 := 100000) (n1 := 1) (i 0) k :=
  funext fun a => by match a with | ⟨0, _⟩ => rfl | ⟨1, _⟩ => rfl
theorem ridx14 (i : S100000x16.Idx) (k : Fin 1) : ridx_main_v14 i k = ix2 (n0 := 1) (n1 := 16) k (i 1) :=
  funext fun a => by match a with | ⟨0, _⟩ => rfl | ⟨1, _⟩ => rfl
theorem lidx18 (i : S100000x16.Idx) (k : Fin 1) : lidx_main_v18 i k = ix2 (n0 := 100000) (n1 := 1) (i 0) k :=
  funext fun a => by match a with | ⟨0, _⟩ => rfl | ⟨1, _⟩ => rfl
theorem ridx18 (i : S100000x16.Idx) (k : Fin 1) : ridx_main_v18 i k = ix2 (n0 := 1) (n1 := 16) k (i 1) :=
  funext fun a => by match a with | ⟨0, _⟩ => rfl | ⟨1, _⟩ => rfl
theorem bias16 (i : S100000x16.Idx) : idx_main_v15 (idx_main_v16 i) = ix1 (n := 16) (i 1) :=
  funext fun a => by match a with | ⟨0, _⟩ => rfl

theorem lidx31 (i : S100000x16.Idx) (k : Fin 16) : lidx_main_v31 i k = ix2 (n0 := 100000) (n1 := 16) (i 0) k :=
  funext fun a => by match a with | ⟨0, _⟩ => rfl | ⟨1, _⟩ => rfl
theorem ridx31 (i : S100000x16.Idx) (k : Fin 16) : ridx_main_v31 i k = ix2 (n0 := 16) (n1 := 16) k (i 1) :=
  funext fun a => by match a with | ⟨0, _⟩ => rfl | ⟨1, _⟩ => rfl
theorem lidx35 (i : S100000x16.Idx) (k : Fin 16) : lidx_main_v35 i k = ix2 (n0 := 100000) (n1 := 16) (i 0) k :=
  funext fun a => by match a with | ⟨0, _⟩ => rfl | ⟨1, _⟩ => rfl
theorem ridx35 (i : S100000x16.Idx) (k : Fin 16) : ridx_main_v35 i k = ix2 (n0 := 16) (n1 := 16) k (i 1) :=
  funext fun a => by match a with | ⟨0, _⟩ => rfl | ⟨1, _⟩ => rfl
theorem bias33 (i : S100000x16.Idx) : idx_main_v32 (idx_main_v33 i) = ix1 (n := 16) (i 1) :=
  funext fun a => by match a with | ⟨0, _⟩ => rfl

theorem lidx47 (i : S100000x1.Idx) (k : Fin 16) : lidx_main_v47 i k = ix2 (n0 := 100000) (n1 := 16) (i 0) k :=
  funext fun a => by match a with | ⟨0, _⟩ => rfl | ⟨1, _⟩ => rfl
theorem ridx47 (i : S100000x1.Idx) (k : Fin 16) : ridx_main_v47 i k = ix2 (n0 := 16) (n1 := 1) k (i 1) :=
  funext fun a => by match a with | ⟨0, _⟩ => rfl | ⟨1, _⟩ => rfl
theorem lidx51 (i : S100000x1.Idx) (k : Fin 16) : lidx_main_v51 i k = ix2 (n0 := 100000) (n1 := 16) (i 0) k :=
  funext fun a => by match a with | ⟨0, _⟩ => rfl | ⟨1, _⟩ => rfl
theorem ridx51 (i : S100000x1.Idx) (k : Fin 16) : ridx_main_v51 i k = ix2 (n0 := 16) (n1 := 1) k (i 1) :=
  funext fun a => by match a with | ⟨0, _⟩ => rfl | ⟨1, _⟩ => rfl
/-- The last bias has one entry, and the one column index of a `· × 1` array is `0`. -/
theorem bias49 (i : S100000x1.Idx) : idx_main_v48 (idx_main_v49 i) = ix1 (n := 1) (i 1) :=
  funext fun a => by
    match a with
    | ⟨0, _⟩ =>
      have h : (i 1).val < 1 := (i 1).isLt
      exact Fin.ext (show 0 = (i 1).val by omega)

/-! ## The three layers -/

/-- The first layer: `max(S(x)·W_rel + b + x·W_root, 0)`. -/
theorem layer1 (x0 : Spec.Mat 100000 1) (x1 : IVec S2x3200000 32) (x2 x3 : Spec.Mat 1 16) (x4 : Spec.Vc 16) :
    val_main_v20 (F := Ideal) x0 x1 x2 x3 x4 = Spec.hidden1' (agg1 x1) x0 x2 x3 x4 := by
  funext i
  rw [val_main_v20_apply, val_main_v19_apply, val_main_v17_apply, val_main_v14_apply, val_main_v16_apply,
    val_main_v15_apply, val_main_v18_apply, val_main_call0_v0_apply, val_main_call0_cst_apply, stage13, bias16]
  simp only [lidx14, ridx14, lidx18, ridx18]
  rfl

/-- The second layer: `S(z)·W_rel + b + z·W_root` of the first layer's output `z`. -/
theorem layer2 (x0 : Spec.Mat 100000 1) (x1 : IVec S2x3200000 32) (x2 x3 : Spec.Mat 1 16) (x4 : Spec.Vc 16)
    (x5 x6 : Spec.Mat 16 16) (x7 : Spec.Vc 16) :
    val_main_v36 (F := Ideal) x0 x1 x2 x3 x4 x5 x6 x7
      = Spec.hidden2' (agg16 x1) x5 x6 x7 (val_main_v20 (F := Ideal) x0 x1 x2 x3 x4) := by
  funext i
  rw [val_main_v36_apply, val_main_v34_apply, val_main_v31_apply, val_main_v33_apply, val_main_v32_apply,
    val_main_v35_apply, stage30, bias33]
  generalize val_main_v20 (F := Ideal) x0 x1 x2 x3 x4 = z
  simp only [lidx31, ridx31, lidx35, ridx35]
  rfl

/-- The third layer: `max(S(z)·w_rel + b + z·w_root, 0)` of the second layer's output `z`. -/
theorem layer3 (x0 : Spec.Mat 100000 1) (x1 : IVec S2x3200000 32) (x2 x3 : Spec.Mat 1 16) (x4 : Spec.Vc 16)
    (x5 x6 : Spec.Mat 16 16) (x7 : Spec.Vc 16) (x8 x9 : Spec.Mat 16 1) (x10 : Spec.Vc 1) :
    val_main_v53 (F := Ideal) x0 x1 x2 x3 x4 x5 x6 x7 x8 x9 x10
      = Spec.outPlain (agg16 x1) x8 x9 x10 (val_main_v36 (F := Ideal) x0 x1 x2 x3 x4 x5 x6 x7) := by
  funext i
  rw [val_main_v53_apply, val_main_v52_apply, val_main_v50_apply, val_main_v47_apply, val_main_v49_apply,
    val_main_v48_apply, val_main_v51_apply, val_main_call1_v0_apply, val_main_call1_cst_apply, stage46, bias49]
  generalize val_main_v36 (F := Ideal) x0 x1 x2 x3 x4 x5 x6 x7 = z
  simp only [lidx47, ridx47, lidx51, ridx51]
  rfl

/-! ## The reference's result -/

/-- Over any argument arrays, the last stage is the plain stack. -/
theorem ref_value (x0 : Spec.Mat 100000 1) (x1 : IVec S2x3200000 32) (x2 x3 : Spec.Mat 1 16) (x4 : Spec.Vc 16)
    (x5 x6 : Spec.Mat 16 16) (x7 : Spec.Vc 16) (x8 x9 : Spec.Mat 16 1) (x10 : Spec.Vc 1) :
    val_main_v53 (F := Ideal) x0 x1 x2 x3 x4 x5 x6 x7 x8 x9 x10
      = Spec.plain (agg1 x1) (agg16 x1) x0 x2 x3 x4 x5 x6 x7 x8 x9 x10 := by
  rw [layer3, layer2, layer1]
  rfl

/-- The reference's result buffer after its run holds the plain three-layer stack of its arguments' launch contents: the node
    features `arg0`, the edge array `arg1`, and the nine weight and bias arrays `arg2` … `arg10`. -/
theorem ref_eq (m : (ℓ : Loc nD τ sig) → Buf (Elt Ideal) ℓ) (c : Dev nD) :
    Cert.ReferenceIdeal.Value.res_out0 (F := Ideal) m c
      = Spec.plain
          (Spec.nbrSum 100000 3200000 1 gather_S100000x1_S3200000x1_S3200000x1_1_0_n_n_0_1_11_wf
            scatter_S100000x1_S3200000x1_S3200000x1_1_0_0_1_wf
            (srcR (m ((c.tc : Thread nD τ).loc main_arg1))) (dstR (m ((c.tc : Thread nD τ).loc main_arg1))))
          (Spec.nbrSum 100000 3200000 16 gather_S100000x16_S3200000x1_S3200000x16_1_0_n_n_0_1_116_wf
            scatter_S100000x16_S3200000x1_S3200000x16_1_0_0_1_wf
            (srcR (m ((c.tc : Thread nD τ).loc main_arg1))) (dstR (m ((c.tc : Thread nD τ).loc main_arg1))))
          (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10)) :=
  (val_main_v53_eq m c).trans (ref_value _ _ _ _ _ _ _ _ _ _ _)

end Cert.RefValue

end
-- ==== Proof.Agg.lean ====
/-
  The neighbour sum read at an index, and why a 16×1 weight passes through it.

  Row `r` of the neighbour sum of a feature array `F` is the sum, over the edges whose destination entry equals `r`, of the rows
  of `F` at the edges' source rows (the source entry read signed and clamped into range). The gather reads a whole row: the
  row it reads does not depend on the column, nor on the number of columns. The scatter adds update row `e` into the row its
  destination entry names, column by column, and drops it when that entry is negative or too large. So the sum at `(r, q)`
  runs over a set of edges that depends on `r` alone, and its terms are the entries `F[row e, q]`.

  For real `Z` and `w`: `∑_e ∑_c Z[row e, c]·w[c] = ∑_c (∑_e Z[row e, c])·w[c]`, an identity of finite sums of real numbers
  (exchange the sums, then take the common factor out). Both sides are the coercions of these real sums.
-/
import proofs.«114869_j2929167695879_2_alg».proof.Proof.Spec

noncomputable section

namespace Cert.Agg

open Idealize.ShloMosaic Idealize.ShloMosaic.ValueIdx Cert.Finite Cert.Spec
open scoped BigOperators

/-! ## Real arrays stay real -/

theorem isReal_nbrSum (N E C : Nat)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (src dst : IVec ⟨2, ![E, 1]⟩ 32) {Fe : Mat N C} (h : IsReal Fe) :
    IsReal (nbrSum N E C wfg wfs src dst Fe) := by
  unfold nbrSum
  exact IsReal.scatterAdd (φ := .f32) _ (fun _ => isRealVal_zero32) dst (IsReal.gather (φ := .f32) _ h src)

/-! ## The row gather at an index -/

/-- The source row of edge `e`: its source entry read as a signed integer and clamped into `[0, N - 1]`. -/
def srcRow (N : Nat) {E : Nat} (src : IVec ⟨2, ![E, 1]⟩ 32) (e : Fin E) : Nat :=
  min (src (ix2 e (0 : Fin 1))).toInt.toNat (N - 1)

theorem srcRow_lt {N : Nat} (hN : 0 < N) {E : Nat} (src : IVec ⟨2, ![E, 1]⟩ 32) (e : Fin E) : srcRow N src e < N := by
  unfold srcRow; omega

theorem rowGather_coord0 {N E C : Nat}
    (wf : GatherDims.WF ⟨2, ![N, C]⟩ ⟨2, ![E, 1]⟩ ⟨2, ![E, C]⟩ [1] [0] [] [0] [] 1 ![1, C])
    (src : IVec ⟨2, ![E, 1]⟩ 32) (e : Fin E) (q : Fin C) :
    ((rowGather N E C wf).operandIdx (ix2 e q) src (0 : Fin 2)).val = srcRow N src e := by
  show (rowGather N E C wf).start (ix2 e q) src (0 : Fin 2) + (rowGather N E C wf).batchCoord (ix2 e q) (0 : Fin 2)
    + (rowGather N E C wf).offCoord (ix2 e q) (0 : Fin 2) = _
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowGather N E C wf).startIndexMap from List.mem_singleton.mpr rfl)]
  have hsi : (rowGather N E C wf).siIdx (ix2 e q) ⟨List.idxOf (0 : Fin 2) (rowGather N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rowGather_coord1 {N E C : Nat}
    (wf : GatherDims.WF ⟨2, ![N, C]⟩ ⟨2, ![E, 1]⟩ ⟨2, ![E, C]⟩ [1] [0] [] [0] [] 1 ![1, C])
    (src : IVec ⟨2, ![E, 1]⟩ 32) (e : Fin E) (q : Fin C) :
    ((rowGather N E C wf).operandIdx (ix2 e q) src (1 : Fin 2)).val = q.val := by
  show (rowGather N E C wf).start (ix2 e q) src (1 : Fin 2) + (rowGather N E C wf).batchCoord (ix2 e q) (1 : Fin 2)
    + (rowGather N E C wf).offCoord (ix2 e q) (1 : Fin 2) = _
  rw [GatherDims.batchCoord_eq_zero _ _ _ List.not_mem_nil, Nat.add_zero,
    show (rowGather N E C wf).start (ix2 e q) src (1 : Fin 2) = 0 from rfl,
    show (rowGather N E C wf).offCoord (ix2 e q) (1 : Fin 2) = q.val from rfl, Nat.zero_add]

theorem rowGather_operandIdx {N E C : Nat} (hN : 0 < N)
    (wf : GatherDims.WF ⟨2, ![N, C]⟩ ⟨2, ![E, 1]⟩ ⟨2, ![E, C]⟩ [1] [0] [] [0] [] 1 ![1, C])
    (src : IVec ⟨2, ![E, 1]⟩ 32) (e : Fin E) (q : Fin C) :
    (rowGather N E C wf).operandIdx (ix2 e q) src = ix2 (⟨srcRow N src e, srcRow_lt hN src e⟩ : Fin N) q := by
  funext a
  refine Fin.ext ?_
  match a with
  | ⟨0, _⟩ => exact rowGather_coord0 wf src e q
  | ⟨1, _⟩ => exact rowGather_coord1 wf src e q

theorem rowScatter_start0 {N E C : Nat}
    (wf : ScatterDims.WF ⟨2, ![N, C]⟩ ⟨2, ![E, 1]⟩ ⟨2, ![E, C]⟩ [1] [0] [0] 1)
    (dst : IVec ⟨2, ![E, 1]⟩ 32) (e : Fin E) (q : Fin C) :
    (rowScatter N E C wf).start (ix2 e q) dst (0 : Fin 2) = (dst (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e q) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 {N E C : Nat}
    (wf : ScatterDims.WF ⟨2, ![N, C]⟩ ⟨2, ![E, 1]⟩ ⟨2, ![E, C]⟩ [1] [0] [0] 1)
    (dst : IVec ⟨2, ![E, 1]⟩ 32) (e : Fin E) (q : Fin C) :
    (rowScatter N E C wf).start (ix2 e q) dst (1 : Fin 2) = 0 := rfl

theorem rowScatter_window0 {N E C : Nat}
    (wf : ScatterDims.WF ⟨2, ![N, C]⟩ ⟨2, ![E, 1]⟩ ⟨2, ![E, C]⟩ [1] [0] [0] 1) (e : Fin E) (q : Fin C) :
    (rowScatter N E C wf).window (ix2 e q) (0 : Fin 2) = 0 := rfl

theorem rowScatter_window1 {N E C : Nat}
    (wf : ScatterDims.WF ⟨2, ![N, C]⟩ ⟨2, ![E, 1]⟩ ⟨2, ![E, C]⟩ [1] [0] [0] 1) (e : Fin E) (q : Fin C) :
    (rowScatter N E C wf).window (ix2 e q) (1 : Fin 2) = q.val := rfl

/-- Update `(e, q)` lands on operand entry `(r, q')` exactly when edge `e`'s destination entry, read signed, is `r`, and the
    columns agree; a destination entry that is negative or at least `N` lands nowhere. -/
theorem rowScatter_resultIdx_iff {N E C : Nat}
    (wf : ScatterDims.WF ⟨2, ![N, C]⟩ ⟨2, ![E, 1]⟩ ⟨2, ![E, C]⟩ [1] [0] [0] 1)
    (dst : IVec ⟨2, ![E, 1]⟩ 32) (e : Fin E) (q : Fin C) (r : Fin N) (q' : Fin C) :
    (rowScatter N E C wf).resultIdx? (ix2 e q) dst = some (ix2 r q')
      ↔ (dst (ix2 e (0 : Fin 1))).toInt = (r.val : Int) ∧ q = q' := by
  have s0 := rowScatter_start0 wf dst e q
  have s1 := rowScatter_start1 wf dst e q
  have w0 := rowScatter_window0 wf e q
  have w1 := rowScatter_window1 wf e q
  have hr := r.isLt
  have hq := q.isLt
  unfold ScatterDims.resultIdx?
  constructor
  · intro h
    split at h
    · rename_i hc
      have h' := Option.some.inj h
      have h0 : ((rowScatter N E C wf).start (ix2 e q) dst (0 : Fin 2)
          + ((rowScatter N E C wf).window (ix2 e q) (0 : Fin 2) : Int)).toNat = r.val :=
        congrArg (fun f => (f (0 : Fin 2)).val) h'
      have h1 : ((rowScatter N E C wf).start (ix2 e q) dst (1 : Fin 2)
          + ((rowScatter N E C wf).window (ix2 e q) (1 : Fin 2) : Int)).toNat = q'.val :=
        congrArg (fun f => (f (1 : Fin 2)).val) h'
      have c0 := (hc (0 : Fin 2)).1
      rw [s0, w0] at h0 c0
      rw [s1, w1] at h1
      exact ⟨by omega, Fin.ext (by omega)⟩
    · exact absurd h (by simp)
  · rintro ⟨hD, rfl⟩
    have hc : ∀ a : Fin 2, 0 ≤ (rowScatter N E C wf).start (ix2 e q) dst a + ((rowScatter N E C wf).window (ix2 e q) a : Int)
        ∧ (rowScatter N E C wf).start (ix2 e q) dst a + ((rowScatter N E C wf).window (ix2 e q) a : Int)
          < ((![N, C] a : Nat) : Int) := by
      refine Fin.forall_fin_two.2 ⟨?_, ?_⟩
      · rw [s0, w0]
        show 0 ≤ _ ∧ _ < (N : Int)
        omega
      · rw [s1, w1]
        show 0 ≤ _ ∧ _ < (C : Int)
        omega
    rw [dif_pos hc]
    refine congrArg some ?_
    funext a
    refine Fin.ext ?_
    revert a
    refine Fin.forall_fin_two.2 ⟨?_, ?_⟩
    · show ((rowScatter N E C wf).start (ix2 e q) dst (0 : Fin 2)
          + ((rowScatter N E C wf).window (ix2 e q) (0 : Fin 2) : Int)).toNat = r.val
      rw [s0, w0]; omega
    · show ((rowScatter N E C wf).start (ix2 e q) dst (1 : Fin 2)
          + ((rowScatter N E C wf).window (ix2 e q) (1 : Fin 2) : Int)).toNat = q.val
      rw [s1, w1]; omega

/-! ## The neighbour sum at an index -/

/-- Entry `(r, q)` of the neighbour sum: zero plus the sum, over the edges whose destination entry is `r`, of the feature
    array's entries at the edges' source rows, column `q`. -/
theorem nbrSum_apply {N E C : Nat}
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (src dst : IVec ⟨2, ![E, 1]⟩ 32) (Fe : Mat N C) (r : Fin N) (q : Fin C) :
    nbrSum N E C wfg wfs src dst Fe (ix2 r q)
      = zero32 + ∑ e ∈ Finset.univ.filter (fun e : Fin E => (dst (ix2 e (0 : Fin 1))).toInt = (r.val : Int)),
          Fe (ix2 (⟨srcRow N src e, srcRow_lt r.pos src e⟩ : Fin N) q) := by
  unfold nbrSum
  rw [scatterAdd_apply]
  refine congrArg (fun t => zero32 + t) ?_
  refine (Finset.sum_filter _ _).trans ?_
  refine (sum_idx2 _).trans ?_
  refine Eq.trans ?_ (Finset.sum_filter _ _).symm
  refine Finset.sum_congr rfl fun e _ => ?_
  by_cases hD : (dst (ix2 e (0 : Fin 1))).toInt = (r.val : Int)
  · rw [if_pos hD]
    refine (Finset.sum_eq_single q (fun q' _ hne => if_neg fun h => hne ?_) (fun h => absurd (Finset.mem_univ q) h)).trans ?_
    · exact ((rowScatter_resultIdx_iff wfs dst e q' r q).1 h).2
    · rw [if_pos ((rowScatter_resultIdx_iff wfs dst e q r q).2 ⟨hD, rfl⟩), gather_apply, rowGather_operandIdx r.pos]
  · rw [if_neg hD]
    exact Finset.sum_eq_zero fun q' _ => if_neg fun h => hD ((rowScatter_resultIdx_iff wfs dst e q' r q).1 h).1

/-! ## A weight applied before or after the neighbour sum -/

/-- The coercion of a finite sum of real numbers is the sum of the coercions. -/
theorem coe_sum {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- For real `Z` and `w` the neighbour sum of the product `Z·w` is the product of the neighbour sum of `Z` with `w`: at row `r`
    both are `∑_e ∑_c Z[row e, c]·w[c]` over the edges `e` with destination `r`, a finite sum of real numbers in which the two
    sums are exchanged and the common factor `w[c]` taken out. -/
theorem nbrSum_lin (N E C : Nat)
    (wfg1 : GatherDims.WF ⟨2, ![N, 1]⟩ ⟨2, ![E, 1]⟩ ⟨2, ![E, 1]⟩ [1] [0] [] [0] [] 1 ![1, 1])
    (wfs1 : ScatterDims.WF ⟨2, ![N, 1]⟩ ⟨2, ![E, 1]⟩ ⟨2, ![E, 1]⟩ [1] [0] [0] 1)
    (wfgC : GatherDims.WF ⟨2, ![N, C]⟩ ⟨2, ![E, 1]⟩ ⟨2, ![E, C]⟩ [1] [0] [] [0] [] 1 ![1, C])
    (wfsC : ScatterDims.WF ⟨2, ![N, C]⟩ ⟨2, ![E, 1]⟩ ⟨2, ![E, C]⟩ [1] [0] [0] 1)
    (src dst : IVec ⟨2, ![E, 1]⟩ 32) (Z : Mat N C) (w : Mat C 1) (hZ : IsReal Z) (hw : IsReal w) :
    nbrSum N E 1 wfg1 wfs1 src dst (lin Z w) = lin (nbrSum N E C wfgC wfsC src dst Z) w := by
  have hZ' : ∀ i, ∃ x : ℝ, Z i = (x : EReal) := hZ
  have hw' : ∀ i, ∃ x : ℝ, w i = (x : EReal) := hw
  choose z hz using hZ'
  choose ω hω using hw'
  funext i
  obtain ⟨r, q, rfl⟩ : ∃ (r : Fin N) (q : Fin 1), i = ix2 r q := ⟨i 0, i 1, eq_ix2 i⟩
  have hR : lin (nbrSum N E C wfgC wfsC src dst Z) w (ix2 r q)
      = ∑ c : Fin C, nbrSum N E C wfgC wfsC src dst Z (ix2 r c) * w (ix2 c q) := rfl
  rw [hR, nbrSum_apply wfg1 wfs1 src dst (lin Z w) r q, zero32_eq, zero_add]
  simp only [nbrSum_apply wfgC wfsC src dst Z r, zero32_eq, zero_add]
  have hL : ∀ ρ : Fin N, lin Z w (ix2 ρ q) = ((∑ c : Fin C, z (ix2 ρ c) * ω (ix2 c q) : ℝ) : EReal) := by
    intro ρ
    show ∑ c : Fin C, Z (ix2 ρ c) * w (ix2 c q) = _
    rw [coe_sum]
    refine Finset.sum_congr rfl fun c _ => ?_
    rw [EReal.coe_mul, ← hz, ← hω]
  calc ∑ e ∈ Finset.univ.filter (fun e : Fin E => (dst (ix2 e (0 : Fin 1))).toInt = (r.val : Int)),
          lin Z w (ix2 (⟨srcRow N src e, srcRow_lt r.pos src e⟩ : Fin N) q)
      = ∑ e ∈ Finset.univ.filter (fun e : Fin E => (dst (ix2 e (0 : Fin 1))).toInt = (r.val : Int)),
          ((∑ c : Fin C, z (ix2 (⟨srcRow N src e, srcRow_lt r.pos src e⟩ : Fin N) c) * ω (ix2 c q) : ℝ) : EReal) :=
        Finset.sum_congr rfl fun e _ => hL _
    _ = ((∑ e ∈ Finset.univ.filter (fun e : Fin E => (dst (ix2 e (0 : Fin 1))).toInt = (r.val : Int)),
          ∑ c : Fin C, z (ix2 (⟨srcRow N src e, srcRow_lt r.pos src e⟩ : Fin N) c) * ω (ix2 c q) : ℝ) : EReal) :=
        (coe_sum _ _).symm
    _ = ((∑ c : Fin C, (∑ e ∈ Finset.univ.filter (fun e : Fin E => (dst (ix2 e (0 : Fin 1))).toInt = (r.val : Int)),
          z (ix2 (⟨srcRow N src e, srcRow_lt r.pos src e⟩ : Fin N) c)) * ω (ix2 c q) : ℝ) : EReal) := by
        rw [Finset.sum_comm]
        simp only [Finset.sum_mul]
    _ = ∑ c : Fin C, (((∑ e ∈ Finset.univ.filter (fun e : Fin E => (dst (ix2 e (0 : Fin 1))).toInt = (r.val : Int)),
          z (ix2 (⟨srcRow N src e, srcRow_lt r.pos src e⟩ : Fin N) c)) * ω (ix2 c q) : ℝ) : EReal) := coe_sum _ _
    _ = ∑ c : Fin C, (∑ e ∈ Finset.univ.filter (fun e : Fin E => (dst (ix2 e (0 : Fin 1))).toInt = (r.val : Int)),
          Z (ix2 (⟨srcRow N src e, srcRow_lt r.pos src e⟩ : Fin N) c)) * w (ix2 c q) := by
        refine Finset.sum_congr rfl fun c _ => ?_
        rw [EReal.coe_mul, coe_sum, ← hω]
        refine congrArg (fun t => t * w (ix2 c q)) ?_
        exact Finset.sum_congr rfl fun e _ => (hz _).symm

end Cert.Agg

end
-- ==== Proof.PreReal.lean ====
/-
  From the precondition to "every float input is a real array".

  The precondition is the conjunction, over the ten float arguments, of `all(|a| < +∞)`: for each argument the comparisons
  `|a[i]| < +∞` are reduced by `and` from the constant 1 into one bit, and the ten bits are joined by `and`. If the result is 1
  then each of the ten bits is 1, so each comparison is 1, and an extended real whose absolute value is below `+∞` is neither
  infinity: it is a real number. The bound's pattern, exponent all ones and mantissa zero with sign 0, denotes `+∞`.
-/
import proofs.«114869_j2929167695879_2_alg».proof.Pre_finite_inputs
import proofs.«114869_j2929167695879_2_alg».proof.Proof.LibFinite
import Idealize.ShloMosaic.Lib.ReduceAll

noncomputable section

namespace Cert.PreReal

open Idealize.ShloMosaic Idealize.ShloMosaic.ValueIdx Cert.Finite Cert.Pre_finite_inputs

/-- The scalar shape has exactly one index. -/
instance : Subsingleton S_.Idx := ⟨fun _ _ => funext fun d => d.elim0⟩

/-- The bound of the comparisons denotes `+∞`. -/
theorem bound_eq_top : Ideal.ofBits .f32 0x7F800000#32 = (⊤ : EReal) := by simp [Ideal.ofBits, Ideal.ieee]

/-- One `all(|a| < +∞)`: when the reduction by `and` of the comparisons is 1, every entry of `a` is a real number. -/
theorem isReal_of_all {s : Shape} {axes : List (Fin s.rank)} (a : FVec Ideal s .f32)
    (bc : S_.BroadcastsInDim s (![] : Fin 0 → Fin s.rank)) (hr : s.ReducesTo axes S_) (hu : 0 < S_.numel)
    (e : Host.reduce IntOp.andi
        (cmpf .olt (Host.absf a) (broadcastInDim s ![] bc (constant (F := Ideal) S_ .f32 0x7F800000#32)))
        (constantI S_ 1 1#1) hr hu ix0 = 1#1) : IsReal a := fun i =>
  isRealVal_of_cmpf_abs (a i) (Ideal.ofBits .f32 0x7F800000#32) bound_eq_top
    (Host.reduce_andi_all _ _ hr hu ix0 e i)

variable [Facts]

/-- Under the precondition every float argument is a real array. -/
theorem real_of_pre (a0 : FVec Ideal S100000x1 .f32) (a1 : IVec S2x3200000 32) (a2 a3 : FVec Ideal S1x16 .f32)
    (a4 : FVec Ideal S16 .f32) (a5 a6 : FVec Ideal S16x16 .f32) (a7 : FVec Ideal S16 .f32)
    (a8 a9 : FVec Ideal S16x1 .f32) (a10 : FVec Ideal S1 .f32)
    (h : Cert.Pre_finite_inputs.fn (F := Ideal) a0 a1 a2 a3 a4 a5 a6 a7 a8 a9 a10 = fun _ => 1#1) :
    IsReal a0 ∧ IsReal a2 ∧ IsReal a3 ∧ IsReal a4 ∧ IsReal a5 ∧ IsReal a6 ∧ IsReal a7 ∧ IsReal a8 ∧ IsReal a9
      ∧ IsReal a10 := by
  have h0 := congrFun h ix0
  dsimp only [fn, fn_part1, fn_part2, andi] at h0
  simp only [IntOp.andi_eq_one] at h0
  obtain ⟨⟨⟨⟨⟨⟨⟨⟨⟨e0, e2⟩, e3⟩, e4⟩, e5⟩, e6⟩, e7⟩, e8⟩, e9⟩, e10⟩ := h0
  exact ⟨isReal_of_all a0 _ _ _ e0, isReal_of_all a2 _ _ _ e2, isReal_of_all a3 _ _ _ e3, isReal_of_all a4 _ _ _ e4,
    isReal_of_all a5 _ _ _ e5, isReal_of_all a6 _ _ _ e6, isReal_of_all a7 _ _ _ e7, isReal_of_all a8 _ _ _ e8,
    isReal_of_all a9 _ _ _ e9, isReal_of_all a10 _ _ _ e10⟩

end Cert.PreReal

end
-- ==== Proof.lean ====
/-
  A three-layer graph convolution on 100000 nodes and 3200000 edges, 1 → 16 → 16 → 1 features: the tiled kernel program agrees
  with the plain one on the extended reals whenever every float input is finite.

  A layer maps node features F to S(F)·W_rel + F·W_root + b, with S the neighbour sum (row i of S(F) adds the rows F[src e] over
  the edges e with dst e = i; a source entry out of range is clamped, a destination entry out of range contributes nothing),
  and max(·, 0) follows the first and the last layer. The kernel program computes S on the host and each layer's dense part
  in a kernel region over ten blocks of 10000 rows; a row of a layer's output depends on the same row of its inputs only, so the
  blocks assemble to the layer of the whole arrays. It adds each bias last where the plain program adds it between the two
  products — the same sum, addition of extended reals being commutative and associative. And in the last layer it forms
  S(Z·w) where the plain program forms S(Z)·w: equal because a product distributes over a finite sum of REAL numbers, which
  every entry is once the inputs are finite (sums, products and maxima of real numbers are real; a gather and a scatter with
  addition of real arrays are real). On the extended reals themselves the step fails at opposite infinities, so the proof uses
  the precondition.

  The modules: Spec (the two programs as functions of the arguments and their agreement on real inputs), Agg (the neighbour sum
  read at an index, and S₁(Z·w) = S₁₆(Z)·w), PreReal (the precondition makes every float argument real), RefValue (the plain
  program's result is the plain specification), KMat / KReg0–3 (each kernel region's output array as the layer of its input
  arrays), KRun / KFold / KValue (the kernel program's run, its intermediate arrays, its result).
-/
import proofs.«114869_j2929167695879_2_alg».proof.Defs
import proofs.«114869_j2929167695879_2_alg».proof.Proof.Gen.Kernel
import proofs.«114869_j2929167695879_2_alg».proof.Proof.Gen.Kernel.Skeleton
import proofs.«114869_j2929167695879_2_alg».proof.Proof.Gen.Kernel.Launch
import proofs.«114869_j2929167695879_2_alg».proof.Proof.Gen.Kernel.Points
import proofs.«114869_j2929167695879_2_alg».proof.Proof.Gen.Kernel.Frame
import proofs.«114869_j2929167695879_2_alg».proof.Proof.Gen.KernelIdeal
import proofs.«114869_j2929167695879_2_alg».proof.Proof.Gen.KernelIdeal.Skeleton
import proofs.«114869_j2929167695879_2_alg».proof.Proof.Gen.KernelIdeal.Launch
import proofs.«114869_j2929167695879_2_alg».proof.Proof.Gen.KernelIdeal.Points
import proofs.«114869_j2929167695879_2_alg».proof.Proof.Gen.KernelIdeal.Frame
import proofs.«114869_j2929167695879_2_alg».proof.Proof.Gen.ReferenceIdeal
import proofs.«114869_j2929167695879_2_alg».proof.Proof.Gen.ReferenceIdeal.Run
import proofs.«114869_j2929167695879_2_alg».proof.Proof.Gen.ReferenceIdeal.Read
import proofs.«114869_j2929167695879_2_alg».proof.Proof.Gen.Pre_finite_inputs
import proofs.«114869_j2929167695879_2_alg».proof.Proof.KValue
import proofs.«114869_j2929167695879_2_alg».proof.Proof.RefValue
import proofs.«114869_j2929167695879_2_alg».proof.Proof.Agg
import proofs.«114869_j2929167695879_2_alg».proof.Proof.PreReal
import Idealize.ShloMosaic.Adequacy
import Idealize.ShloMosaic.Init

set_option maxRecDepth 16384

noncomputable section

namespace Cert.Proof

open Idealize.ShloMosaic Idealize.SL.Sem

/-- The word-level kernel program terminates without a fault and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the plain program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, both idealized programs end with the same result: the kernel program's is the
    specification with the last weight pushed through the neighbour sum, the plain program's the plain specification, and on
    finite inputs the two specifications are one function. -/
theorem algebraic : Cert.algebraic_KernelIdeal_ReferenceIdeal := by
  intro m ρ m' ρ' hpre hagree
  refine ⟨fun c => Cert.KFold.Y m c, Cert.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r2, r3, r4, r5, r6, r7, r8, r9, r10⟩ := Cert.PreReal.real_of_pre _ _ _ _ _ _ _ _ _ _ _ (hpre c)
  show Cert.ReferenceIdeal.Value.res_main_v53 m' c = Cert.KFold.Y m c
  rw [Cert.KValue.Y_eq]
  refine (Cert.RefValue.ref_eq m' c).trans ?_
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  exact (Cert.Spec.pushed_eq_plain _ _
    (fun v hv => Cert.Agg.isReal_nbrSum _ _ _ _ _ _ _ hv) (fun v hv => Cert.Agg.isReal_nbrSum _ _ _ _ _ _ _ hv)
    _ _ _ _ _ _ _ _ _ _
    (fun Z hZ => Cert.Agg.nbrSum_lin _ _ _ _ _ _ _ _ _ Z _ hZ r8) r0 r2 r3 r4 r5 r6 r7).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
